-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part2 {F : FTy → Type} [FloatOps F] (main_arg7 : FVec F S2048 .f32) (main_arg8 : FVec F S2048x2048 .f32) (main_arg9 : FVec F S2048 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048 .f32 := Host.absf main_arg9
  let main_cst_16 : FVec F S_ .f32 := constant S_ .f32 0x7F800000#32
  let main_v45 : FVec F S2048 .f32 := broadcastInDim S2048 ![] bcast_S_S2048 main_cst_16
  let main_v46 : IVec S2048 1 := cmpf .olt main_v44 main_v45
  let main_c_17 : IVec S_ 1 := constantI S_ 1 1#1
  let main_v47 : IVec S_ 1 := (fun x v => Host.reduce IntOp.andi x v reducesTo_S2048_S_d0 h_S_) main_v46 main_c_17
  let main_v48 : IVec S_ 1 := andi main_v43 main_v47
  main_v48

def fn_part1 {F : FTy → Type} [FloatOps F] (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x2048 .f32 := Host.absf main_arg6
  let main_cst_10 : FVec F S_ .f32 := constant S_ .f32 0x7F800000#32
  let main_v30 : FVec F S2048x2048 .f32 := broadcastInDim S2048x2048 ![] bcast_S_S2048x2048 main_cst_10
  let main_v31 : IVec S2048x2048 1 := cmpf .olt main_v29 main_v30
  let main_c_11 : IVec S_ 1 := constantI S_ 1 1#1
  let main_v32 : IVec S_ 1 := (fun x v => Host.reduce IntOp.andi x v reducesTo_S2048x2048_S_d0_1 h_S_) main_v31 main_c_11
  let main_v33 : IVec S_ 1 := andi main_v28 main_v32
  fn_part2 (F := F) main_arg7 main_arg8 main_arg9 main_v33

def fn {F : FTy → Type} [FloatOps F] (main_arg0 : FVec F S8192x2048 .f32) (main_arg1 : FVec F S8192x2048 .f32) (main_arg2 : FVec F S2048x2048 .f32) (main_arg3 : FVec F S2048 .f32) (main_arg4 : FVec F S2048x2048 .f32) (main_arg5 : FVec F S2048 .f32) (main_arg6 : FVec F S2048x2048 .f32) (main_arg7 : FVec F S2048 .f32) (main_arg8 : FVec F S2048x2048 .f32) (main_arg9 : FVec F S2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_v13 main_v16
-- ==== Kernel.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S128x2048 : Shape := ⟨2, ![128, 2048]⟩
abbrev S128x8x256 : Shape := ⟨3, ![128, 8, 256]⟩
abbrev S128x1x256 : Shape := ⟨3, ![128, 1, 256]⟩
abbrev S128x8 : Shape := ⟨2, ![128, 8]⟩
abbrev S128x8x1 : Shape := ⟨3, ![128, 8, 1]⟩
abbrev S128x8x8 : Shape := ⟨3, ![128, 8, 8]⟩

abbrev nBuf : Space → Nat
  | .hbm => 19
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .bf16⟩
  | .hbm, ⟨11, _⟩ => ⟨S2048x2048, .bf16⟩
  | .hbm, ⟨12, _⟩ => ⟨S2048x2048, .bf16⟩
  | .hbm, ⟨13, _⟩ => ⟨S2048x2048, .bf16⟩
  | .hbm, ⟨14, _⟩ => ⟨S1x2048, .f32⟩
  | .hbm, ⟨15, _⟩ => ⟨S1x2048, .f32⟩
  | .hbm, ⟨16, _⟩ => ⟨S1x2048, .f32⟩
  | .hbm, ⟨17, _⟩ => ⟨S1x2048, .f32⟩
  | .hbm, ⟨18, _⟩ => ⟨S8192x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S2048x2048, .bf16⟩
  | .local _ .vmem, ⟨5, _⟩ => ⟨S1x2048, .f32⟩
  | .local _ .vmem, ⟨6, _⟩ => ⟨S2048x2048, .bf16⟩
  | .local _ .vmem, ⟨7, _⟩ => ⟨S1x2048, .f32⟩
  | .local _ .vmem, ⟨8, _⟩ => ⟨S2048x2048, .bf16⟩
  | .local _ .vmem, ⟨9, _⟩ => ⟨S1x2048, .f32⟩
  | .local _ .vmem, ⟨10, _⟩ => ⟨S2048x2048, .bf16⟩
  | .local _ .vmem, ⟨11, _⟩ => ⟨S1x2048, .f32⟩
  | .local _ .vmem, ⟨12, _⟩ => ⟨S128x2048, .f32⟩
  | .local _ .vmem, ⟨13, _⟩ => ⟨S128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  bitsLt_bf16_f32 : FTy.bits .bf16 < FTy.bits .f32
  shapeCasts_S2048_S1x2048 : S2048.ShapeCasts S1x2048
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S128x2048 : S1x2048.Broadcasts S128x2048
  shapeCasts_S128x2048_S128x8x256 : S128x2048.ShapeCasts S128x8x256
  slices_S128x8x256_o0_0_0_S128x1x256 : S128x8x256.Slices ![0, 0, 0] S128x1x256
  broadcasts_S128x1x256_S128x8x256 : S128x1x256.Broadcasts S128x8x256
  reduces_S128x8x256_S128x8 : S128x8x256.Reduces [2] S128x8
  slices_S128x8x256_o0_1_0_S128x1x256 : S128x8x256.Slices ![0, 1, 0] S128x1x256
  slices_S128x8x256_o0_2_0_S128x1x256 : S128x8x256.Slices ![0, 2, 0] S128x1x256
  slices_S128x8x256_o0_3_0_S128x1x256 : S128x8x256.Slices ![0, 3, 0] S128x1x256
  slices_S128x8x256_o0_4_0_S128x1x256 : S128x8x256.Slices ![0, 4, 0] S128x1x256
  slices_S128x8x256_o0_5_0_S128x1x256 : S128x8x256.Slices ![0, 5, 0] S128x1x256
  slices_S128x8x256_o0_6_0_S128x1x256 : S128x8x256.Slices ![0, 6, 0] S128x1x256
  slices_S128x8x256_o0_7_0_S128x1x256 : S128x8x256.Slices ![0, 7, 0] S128x1x256
  shapeCasts_S128x8_S128x8x1 : S128x8.ShapeCasts S128x8x1
  concatenates_S128x8x1_S128x8x1_S128x8x1_S128x8x1_S128x8x1_S128x8x1_S128x8x1_S128x8x1_S128x8x8_d2 : Shape.Concatenates [S128x8x1, S128x8x1, S128x8x1, S128x8x1, S128x8x1, S128x8x1, S128x8x1, S128x8x1] S128x8x8 2
  reduces_S128x8x8_S128x8 : S128x8x8.Reduces [2] S128x8
  broadcasts_S128x8x1_S128x8x8 : S128x8x1.Broadcasts S128x8x8
  slices_S128x8x8_o0_0_0_S128x8x1 : S128x8x8.Slices ![0, 0, 0] S128x8x1
  broadcasts_S128x8x1_S128x8x256 : S128x8x1.Broadcasts S128x8x256
  slices_S128x8x8_o0_0_1_S128x8x1 : S128x8x8.Slices ![0, 0, 1] S128x8x1
  slices_S128x8x8_o0_0_2_S128x8x1 : S128x8x8.Slices ![0, 0, 2] S128x8x1
  slices_S128x8x8_o0_0_3_S128x8x1 : S128x8x8.Slices ![0, 0, 3] S128x8x1
  slices_S128x8x8_o0_0_4_S128x8x1 : S128x8x8.Slices ![0, 0, 4] S128x8x1
  slices_S128x8x8_o0_0_5_S128x8x1 : S128x8x8.Slices ![0, 0, 5] S128x8x1
  slices_S128x8x8_o0_0_6_S128x8x1 : S128x8x8.Slices ![0, 0, 6] S128x8x1
  slices_S128x8x8_o0_0_7_S128x8x1 : S128x8x8.Slices ![0, 0, 7] S128x8x1
  shapeCasts_S128x8x256_S128x2048 : S128x8x256.ShapeCasts S128x2048
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S8192x2048.size a
  hwx0_0 : ∀ i : grid0.Coords, EltTy.bits .f32 = 32 ∨ (Rect.block (s := S8192x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S8192x2048.size a
  hwx0_1 : ∀ i : grid0.Coords, EltTy.bits .f32 = 32 ∨ (Rect.block (s := S8192x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2048.size a ≤ S1x2048.size a
  hwx0_3 : ∀ i : grid0.Coords, EltTy.bits .f32 = 32 ∨ (Rect.block (s := S1x2048) S1x2048.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048x2048.size a ≤ S2048x2048.size a
  hwx0_4 : ∀ i : grid0.Coords, EltTy.bits .bf16 = 32 ∨ (Rect.block (s := S2048x2048) S2048x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2048x2048.size a ≤ S2048x2048.size a
  hwx0_8 : ∀ i : grid0.Coords, EltTy.bits .bf16 = 32 ∨ (Rect.block (s := S2048x2048) S2048x2048.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x2048.size a ≤ S1x2048.size a
  hwx0_9 : ∀ i : grid0.Coords, EltTy.bits .f32 = 32 ∨ (Rect.block (s := S1x2048) S1x2048.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S128x2048.size a ≤ S8192x2048.size a
  hwx0_10 : ∀ i : grid0.Coords, EltTy.bits .f32 = 32 ∨ (Rect.block (s := S8192x2048) S128x2048.size (cc0_transform_10 i) (hinb0_10 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S2048x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x2048.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S128x2048.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S8192x8x256 : Shape := ⟨3, ![8192, 8, 256]⟩
abbrev S8192x8x8 : Shape := ⟨3, ![8192, 8, 8]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x2048, .f32⟩
  | .hbm, ⟨9, _⟩ => ⟨S2048, .f32⟩
  | .hbm, ⟨10, _⟩ => ⟨S2048x2048, .f32⟩
  | .hbm, ⟨11, _⟩ => ⟨S8192x2048, .f32⟩
  | .hbm, ⟨12, _⟩ => ⟨S1x2048, .f32⟩
  | .hbm, ⟨13, _⟩ => ⟨S8192x2048, .f32⟩
  | .hbm, ⟨14, _⟩ => ⟨S8192x2048, .f32⟩
  | .hbm, ⟨15, _⟩ => ⟨S8192x8x256, .f32⟩
  | .hbm, ⟨16, _⟩ => ⟨S2048x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S8192x8x256, .f32⟩
  | .hbm, ⟨22, _⟩ => ⟨S2048x2048, .f32⟩
  | .hbm, ⟨23, _⟩ => ⟨S8192x2048, .f32⟩
  | .hbm, ⟨24, _⟩ => ⟨S1x2048, .f32⟩
  | .hbm, ⟨25, _⟩ => ⟨S8192x2048, .f32⟩
  | .hbm, ⟨26, _⟩ => ⟨S8192x2048, .f32⟩
  | .hbm, ⟨27, _⟩ => ⟨S8192x8x256, .f32⟩
  | .hbm, ⟨28, _⟩ => ⟨S8192x8x8, .f32⟩
  | .hbm, ⟨29, _⟩ => ⟨S_, .f32⟩
  | .hbm, ⟨30, _⟩ => ⟨S8192x8x8, .f32⟩
  | .hbm, ⟨31, _⟩ => ⟨S8192x8x8, .f32⟩
  | .hbm, ⟨32, _⟩ => ⟨S_, .f32⟩
  | .hbm, ⟨33, _⟩ => ⟨S8192x8, .f32⟩
  | .hbm, ⟨34, _⟩ => ⟨S_, .f32⟩
  | .hbm, ⟨35, _⟩ => ⟨S8192x8, .f32⟩
  | .hbm, ⟨36, _⟩ => ⟨S8192x8, .f32⟩
  | .hbm, ⟨37, _⟩ => ⟨S8192x8x1, .f32⟩
  | .hbm, ⟨38, _⟩ => ⟨S8192x8x8, .f32⟩
  | .hbm, ⟨39, _⟩ => ⟨S8192x8x8, .f32⟩
  | .hbm, ⟨40, _⟩ => ⟨S8192x8x8, .f32⟩
  | .hbm, ⟨41, _⟩ => ⟨S_, .f32⟩
  | .hbm, ⟨42, _⟩ => ⟨S8192x8, .f32⟩
  | .hbm, ⟨43, _⟩ => ⟨S8192x8x1, .f32⟩
  | .hbm, ⟨44, _⟩ => ⟨S8192x8x8, .f32⟩
  | .hbm, ⟨45, _⟩ => ⟨S8192x8x8, .f32⟩
  | .hbm, ⟨46, _⟩ => ⟨S8192x8x256, .f32⟩
  | .hbm, ⟨47, _⟩ => ⟨S8192x2048, .f32⟩
  | .hbm, ⟨48, _⟩ => ⟨S2048x2048, .f32⟩
  | .hbm, ⟨49, _⟩ => ⟨S8192x2048, .f32⟩
  | .hbm, ⟨50, _⟩ => ⟨S1x2048, .f32⟩
  | .hbm, ⟨51, _⟩ => ⟨S8192x2048, .f32⟩
  | .hbm, ⟨52, _⟩ => ⟨S8192x2048, .f32⟩
  | .hbm, ⟨53, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_cst_0 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_2 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]

class Facts₀ : Prop where
  transposes_S2048x2048_S2048x2048_1_0 : S2048x2048.Transposes [1, 0] S2048x2048
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  shapeCasts_S8192x2048_S8192x8x256 : S8192x2048.ShapeCasts S8192x8x256
  bcast_S_S8192x8x8 : S_.BroadcastsInDim S8192x8x8 (![] : Fin 0 → Fin S8192x8x8.rank)
  reducesTo_S8192x8x8_S8192x8_d2 : S8192x8x8.ReducesTo [2] S8192x8
  h_S_ : 0 < S_.numel
  bcast_S_S8192x8 : S_.BroadcastsInDim S8192x8 (![] : Fin 0 → Fin S8192x8.rank)
  bcast_S8192x8_S8192x8x1_0_1 : S8192x8.BroadcastsInDim S8192x8x1 (![0, 1] : Fin 2 → Fin S8192x8x1.rank)
  bcast_S8192x8x1_S8192x8x8_0_1_2 : S8192x8x1.BroadcastsInDim S8192x8x8 (![0, 1, 2] : Fin 3 → Fin S8192x8x8.rank)
  shapeCasts_S8192x8x256_S8192x2048 : S8192x8x256.ShapeCasts S8192x2048
  dot_S8192x2048_S2048x2048_S8192x2048_1_0_0_1_n_n_wf : DotDims.WF S8192x2048 S2048x2048 S8192x2048 [1] [0] [0] [1] [] []
  dot_S8192x8x256_S8192x8x256_S8192x8x8_2_2_1_1_0_0_wf : DotDims.WF S8192x8x256 S8192x8x256 S8192x8x8 [2] [2] [1] [1] [0] [0]
  dot_S8192x8x8_S8192x8x256_S8192x8x256_2_1_1_2_0_0_wf : DotDims.WF S8192x8x8 S8192x8x256 S8192x8x256 [2] [1] [1] [2] [0] [0]

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf
def dot_S8192x8x256_S8192x8x256_S8192x8x8_2_2_1_1_0_0 : DotDims S8192x8x256 S8192x8x256 S8192x8x8 where
  lhsContracting := [2]
  rhsContracting := [2]
  lhsNonContracting := [1]
  rhsNonContracting := [1]
  lhsBatch := [0]
  rhsBatch := [0]
  wf := dot_S8192x8x256_S8192x8x256_S8192x8x8_2_2_1_1_0_0_wf
def dot_S8192x8x8_S8192x8x256_S8192x8x256_2_1_1_2_0_0 : DotDims S8192x8x8 S8192x8x256 S8192x8x256 where
  lhsContracting := [2]
  rhsContracting := [1]
  lhsNonContracting := [1]
  rhsNonContracting := [2]
  lhsBatch := [0]
  rhsBatch := [0]
  wf := dot_S8192x8x8_S8192x8x256_S8192x8x256_2_1_1_2_0_0_wf

class Facts : Prop extends Facts₀ where

variable [Facts]
-- ==== Proof.TokenHeads.lean ====
/-
  Attention across the eight heads of ONE token, over the extended reals.

  A token's row x (2048 wide) is projected to a query q = x·Wqᵀ + bq, and a second row y to a key k = y·Wkᵀ + bk and a
  value v = y·Wvᵀ + bv. Each 2048-wide row is eight heads of 256 lanes: lane d of head h is column 256·h + d. The
  heads of the SAME token attend to one another: the score of head h against head g is ⟨q_h, k_g⟩/16, a softmax over
  g turns the eight scores of head h into weights (the largest score subtracted first), head h's output is the
  weighted sum of the value heads, and the eight outputs, laid side by side again, go through the output projection
  plus the residual x. Nothing couples two tokens, so a whole [8192, 2048] result is this one-token function row by row.
-/
import Idealize.ShloMosaic.PureOps.Ideal
import Idealize.ShloMosaic.Lib.ValueIdx

noncomputable section

open scoped BigOperators

namespace Cert.TokenHeads

open Idealize.ShloMosaic Idealize.ShloMosaic.ValueIdx

/-- The scale 1/16 = 256^(-1/2), as the binary32 word both programs spell it with. -/
abbrev scale : EReal := Ideal.ofBits .f32 0x3D800000#32
/-- The word of -∞ both programs start a maximum from. -/
abbrev bottom : EReal := Ideal.ofBits .f32 0xFF800000#32

/-- Lane d of head h is column 256·h + d of a 2048-wide row. -/
def col (h : Fin 8) (d : Fin 256) : Fin 2048 := ⟨256 * h.val + d.val, by have := h.isLt; have := d.isLt; omega⟩
/-- The head a column belongs to, -/
def headOf (c : Fin 2048) : Fin 8 := ⟨c.val / 256, by have := c.isLt; omega⟩
/-- and its lane there. -/
def laneOf (c : Fin 2048) : Fin 256 := ⟨c.val % 256, Nat.mod_lt _ (by decide)⟩

theorem col_head_lane (c : Fin 2048) : col (headOf c) (laneOf c) = c :=
  Fin.ext (by show 256 * (c.val / 256) + c.val % 256 = c.val; omega)

/-- A linear layer applied to one row: entry j of x·Wᵀ + b. -/
def lin (x : Fin 2048 → EReal) (W : Fin 2048 → Fin 2048 → EReal) (b : Fin 2048 → EReal) (j : Fin 2048) : EReal :=
  (∑ k : Fin 2048, x k * W j k) + b j

/-- The score of head h of the query against head g of the key. -/
def score (q k : Fin 2048 → EReal) (h g : Fin 8) : EReal :=
  (∑ d : Fin 256, q (col h d) * k (col g d)) * scale

/-- The largest of eight scores, as both programs take it: a fold of max from -∞, then once more against -∞. -/
def top (s : Fin 8 → EReal) : EReal := max bottom ((Finset.univ : Finset (Fin 8)).fold max bottom s)

/-- The softmax weight of entry g among eight scores. -/
def weight (s : Fin 8 → EReal) (g : Fin 8) : EReal :=
  Ideal.div (Ideal.exp (s g - top s)) (∑ g' : Fin 8, Ideal.exp (s g' - top s))

/-- Lane d of the weighted sum of the eight value heads. -/
def mix (a : Fin 8 → EReal) (v : Fin 2048 → EReal) (d : Fin 256) : EReal := ∑ g : Fin 8, a g * v (col g d)

/-- Column c of the attended row: head (headOf c), lane (laneOf c). -/
def attend (q k v : Fin 2048 → EReal) (c : Fin 2048) : EReal :=
  mix (weight (score q k (headOf c))) v (laneOf c)

/-- The whole one-token function: projections, attention across the heads, output projection, residual. -/
def token (x y : Fin 2048 → EReal) (Wq : Fin 2048 → Fin 2048 → EReal) (bq : Fin 2048 → EReal)
    (Wk : Fin 2048 → Fin 2048 → EReal) (bk : Fin 2048 → EReal) (Wv : Fin 2048 → Fin 2048 → EReal) (bv : Fin 2048 → EReal)
    (Wo : Fin 2048 → Fin 2048 → EReal) (bo : Fin 2048 → EReal) (j : Fin 2048) : EReal :=
  lin (attend (lin x Wq bq) (lin y Wk bk) (lin y Wv bv)) Wo bo j + x j

/-- The result array of the argument arrays: row t is the one-token function of row t of x and of y. -/
def G (x y : (⟨2, ![8192, 2048]⟩ : Shape).Idx → EReal)
    (Wq : (⟨2, ![2048, 2048]⟩ : Shape).Idx → EReal) (bq : (⟨1, ![2048]⟩ : Shape).Idx → EReal)
    (Wk : (⟨2, ![2048, 2048]⟩ : Shape).Idx → EReal) (bk : (⟨1, ![2048]⟩ : Shape).Idx → EReal)
    (Wv : (⟨2, ![2048, 2048]⟩ : Shape).Idx → EReal) (bv : (⟨1, ![2048]⟩ : Shape).Idx → EReal)
    (Wo : (⟨2, ![2048, 2048]⟩ : Shape).Idx → EReal) (bo : (⟨1, ![2048]⟩ : Shape).Idx → EReal) :
    (⟨2, ![8192, 2048]⟩ : Shape).Idx → EReal := fun i =>
  token (fun k => x (ix2 (i 0) k)) (fun k => y (ix2 (i 0) k))
    (fun j k => Wq (ix2 j k)) (fun j => bq (ix1 j)) (fun j k => Wk (ix2 j k)) (fun j => bk (ix1 j))
    (fun j k => Wv (ix2 j k)) (fun j => bv (ix1 j)) (fun j k => Wo (ix2 j k)) (fun j => bo (ix1 j)) (i 1)

end Cert.TokenHeads

end
-- ==== Proof.HeadLayout.lean ====
/-
  The re-laying operations of a block of tokens, read at an index.

  A block holds R tokens. A row of 2048 columns is viewed as eight heads of 256 lanes (column 256·h + d is lane d of
  head h) and back; one head, or one score column, is cut out by a unit-stride slice and spread again over the eight
  heads, the 256 lanes or the eight score columns by a broadcast; eight single columns laid side by side make the
  [R, 8, 8] score block; a sum or a maximum along the last axis runs over that axis's coordinate.
-/
import Idealize.ShloMosaic.PureOps.Ideal.Laws
import Idealize.ShloMosaic.Lib.Pipeline.Value
import Idealize.ShloMosaic.Lib.ValueIdx
import Idealize.ShloMosaic.Lib.ValueLayout
import proofs.«139374_j6485400617413_2_alg».proof.Proof.TokenHeads

noncomputable section

open scoped BigOperators

namespace Cert.HeadLayout

open Idealize.ShloMosaic Idealize.ShloMosaic.ValueIdx Cert.TokenHeads

variable {α : Type} {R : Nat}

/-! ## Rows as heads and back -/

/-- A [R, 2048] block viewed as [R, 8, 256]: lane d of head h of token r is column 256·h + d of row r. -/
theorem cast_heads (v : (⟨2, ![R, 2048]⟩ : Shape).Idx → α) (hc : (⟨2, ![R, 2048]⟩ : Shape).ShapeCasts ⟨3, ![R, 8, 256]⟩)
    (r : Fin R) (h : Fin 8) (d : Fin 256) :
    shapeCast ⟨3, ![R, 8, 256]⟩ v hc (ix3 r h d) = v (ix2 r (col h d)) :=
  shapeCast_apply v hc _ _ (by
    rw [Shape.rowMajor_val_two, Shape.rowMajor_val_three]
    show r.val * 2048 + (256 * h.val + d.val) = (r.val * 8 + h.val) * 256 + d.val
    omega)

/-- A [R, 8, 256] block viewed as [R, 2048]: column c of row r is lane (c mod 256) of head (c div 256). -/
theorem cast_cols (v : (⟨3, ![R, 8, 256]⟩ : Shape).Idx → α) (hc : (⟨3, ![R, 8, 256]⟩ : Shape).ShapeCasts ⟨2, ![R, 2048]⟩)
    (r : Fin R) (c : Fin 2048) :
    shapeCast ⟨2, ![R, 2048]⟩ v hc (ix2 r c) = v (ix3 r (headOf c) (laneOf c)) :=
  shapeCast_apply v hc _ _ (by
    rw [Shape.rowMajor_val_two, Shape.rowMajor_val_three]
    show (r.val * 8 + c.val / 256) * 256 + c.val % 256 = r.val * 2048 + c.val
    omega)

/-- A [R, 8] block given a unit last axis. -/
theorem cast_unit (v : (⟨2, ![R, 8]⟩ : Shape).Idx → α) (hc : (⟨2, ![R, 8]⟩ : Shape).ShapeCasts ⟨3, ![R, 8, 1]⟩)
    (r : Fin R) (h : Fin 8) :
    shapeCast ⟨3, ![R, 8, 1]⟩ v hc (ix3 r h (0 : Fin 1)) = v (ix2 r h) :=
  shapeCast_apply v hc _ _ (by
    rw [Shape.rowMajor_val_two, Shape.rowMajor_val_three]
    show r.val * 8 + h.val = (r.val * 8 + h.val) * 1 + 0
    omega)

/-! ## One head, one score column -/

/-- Head g cut out of [R, 8, 256]. -/
theorem head_slice (g : Nat) (hg : g < 8) (v : (⟨3, ![R, 8, 256]⟩ : Shape).Idx → α)
    (hs : (⟨3, ![R, 8, 256]⟩ : Shape).Slices ![0, g, 0] ⟨3, ![R, 1, 256]⟩) (r : Fin R) (d : Fin 256) :
    extractStridedSlice ⟨3, ![R, 1, 256]⟩ ![0, g, 0] v hs (ix3 r (0 : Fin 1) d) = v (ix3 r (⟨g, hg⟩ : Fin 8) d) :=
  slice3_axis1_apply g v hs r (0 : Fin 1) d ⟨g, hg⟩ rfl

/-- Score column g cut out of [R, 8, 8]. -/
theorem col_slice (g : Nat) (hg : g < 8) (v : (⟨3, ![R, 8, 8]⟩ : Shape).Idx → α)
    (hs : (⟨3, ![R, 8, 8]⟩ : Shape).Slices ![0, 0, g] ⟨3, ![R, 8, 1]⟩) (r : Fin R) (h : Fin 8) :
    extractStridedSlice ⟨3, ![R, 8, 1]⟩ ![0, 0, g] v hs (ix3 r h (0 : Fin 1)) = v (ix3 r h (⟨g, hg⟩ : Fin 8)) :=
  extractStridedSlice_apply _ _ _ _ _ (fun ax => by
    match ax with
    | ⟨0, _⟩ => exact (Nat.zero_add _).symm
    | ⟨1, _⟩ => exact (Nat.zero_add _).symm
    | ⟨2, _⟩ => rfl)

/-! ## Spreading a head, a column -/

/-- One head spread over the eight heads. -/
theorem bcast_head (v : (⟨3, ![R, 1, 256]⟩ : Shape).Idx → α) (hb : (⟨3, ![R, 1, 256]⟩ : Shape).Broadcasts ⟨3, ![R, 8, 256]⟩)
    (r : Fin R) (h : Fin 8) (d : Fin 256) :
    broadcastTo ⟨3, ![R, 8, 256]⟩ v hb (ix3 r h d) = v (ix3 r (0 : Fin 1) d) := by
  refine broadcastTo_apply v hb (ix3 r h d) (ix3 r (0 : Fin 1) d) fun ax => ?_
  match ax with
  | ⟨0, _⟩ =>
    show r.val = if R = 1 then 0 else r.val
    split
    · have := r.isLt; omega
    · rfl
  | ⟨1, _⟩ => rfl
  | ⟨2, _⟩ => rfl

/-- One column spread over the 256 lanes. -/
theorem bcast_lanes (v : (⟨3, ![R, 8, 1]⟩ : Shape).Idx → α) (hb : (⟨3, ![R, 8, 1]⟩ : Shape).Broadcasts ⟨3, ![R, 8, 256]⟩)
    (r : Fin R) (h : Fin 8) (d : Fin 256) :
    broadcastTo ⟨3, ![R, 8, 256]⟩ v hb (ix3 r h d) = v (ix3 r h (0 : Fin 1)) := by
  refine broadcastTo_apply v hb (ix3 r h d) (ix3 r h (0 : Fin 1)) fun ax => ?_
  match ax with
  | ⟨0, _⟩ =>
    show r.val = if R = 1 then 0 else r.val
    split
    · have := r.isLt; omega
    · rfl
  | ⟨1, _⟩ => rfl
  | ⟨2, _⟩ => rfl

/-- One column spread over the eight score columns. -/
theorem bcast_cols (v : (⟨3, ![R, 8, 1]⟩ : Shape).Idx → α) (hb : (⟨3, ![R, 8, 1]⟩ : Shape).Broadcasts ⟨3, ![R, 8, 8]⟩)
    (r : Fin R) (h g : Fin 8) :
    broadcastTo ⟨3, ![R, 8, 8]⟩ v hb (ix3 r h g) = v (ix3 r h (0 : Fin 1)) := by
  refine broadcastTo_apply v hb (ix3 r h g) (ix3 r h (0 : Fin 1)) fun ax => ?_
  match ax with
  | ⟨0, _⟩ =>
    show r.val = if R = 1 then 0 else r.val
    split
    · have := r.isLt; omega
    · rfl
  | ⟨1, _⟩ => rfl
  | ⟨2, _⟩ => rfl

/-! ## Eight columns side by side -/

-- Piece k of eight unit columns is the one that holds column k: the k pieces before it span k columns, and off the
-- last axis the index is unchanged.
set_option hygiene false in
local macro "eighth" k:num s:ident : tactic =>
  `(tactic| exact concatenate_apply_piece 2 _ hc _ $k (by show ($k : Nat) < 8; decide) _ $s rfl rfl $k rfl (ix3 r h (0 : Fin 1))
    (fun b hb => by
      match b with
      | ⟨0, _⟩ => rfl
      | ⟨1, _⟩ => rfl
      | ⟨2, _⟩ => exact absurd rfl hb) rfl)

/-- Eight [R, 8, 1] columns concatenated along the last axis: column g of the result is the g-th piece. -/
theorem concat8 (s0 s1 s2 s3 s4 s5 s6 s7 : (⟨3, ![R, 8, 1]⟩ : Shape).Idx → α)
    (hc : Shape.Concatenates (([⟨⟨3, ![R, 8, 1]⟩, s0⟩, ⟨⟨3, ![R, 8, 1]⟩, s1⟩, ⟨⟨3, ![R, 8, 1]⟩, s2⟩, ⟨⟨3, ![R, 8, 1]⟩, s3⟩,
      ⟨⟨3, ![R, 8, 1]⟩, s4⟩, ⟨⟨3, ![R, 8, 1]⟩, s5⟩, ⟨⟨3, ![R, 8, 1]⟩, s6⟩, ⟨⟨3, ![R, 8, 1]⟩, s7⟩] :
        List ((s : Shape) × (s.Idx → α))).map (·.1)) ⟨3, ![R, 8, 8]⟩ 2)
    (r : Fin R) (h g : Fin 8) :
    concatenate ⟨3, ![R, 8, 8]⟩ 2 [⟨⟨3, ![R, 8, 1]⟩, s0⟩, ⟨⟨3, ![R, 8, 1]⟩, s1⟩, ⟨⟨3, ![R, 8, 1]⟩, s2⟩, ⟨⟨3, ![R, 8, 1]⟩, s3⟩,
      ⟨⟨3, ![R, 8, 1]⟩, s4⟩, ⟨⟨3, ![R, 8, 1]⟩, s5⟩, ⟨⟨3, ![R, 8, 1]⟩, s6⟩, ⟨⟨3, ![R, 8, 1]⟩, s7⟩] hc (ix3 r h g)
      = (![s0, s1, s2, s3, s4, s5, s6, s7] g) (ix3 r h (0 : Fin 1)) := by
  match g with
  | ⟨0, _⟩ => eighth 0 s0
  | ⟨1, _⟩ => eighth 1 s1
  | ⟨2, _⟩ => eighth 2 s2
  | ⟨3, _⟩ => eighth 3 s3
  | ⟨4, _⟩ => eighth 4 s4
  | ⟨5, _⟩ => eighth 5 s5
  | ⟨6, _⟩ => eighth 6 s6
  | ⟨7, _⟩ => eighth 7 s7

/-! ## Sums and the maximum along the last axis -/

/-- The index (r, h) with the dropped last coordinate k put back is (r, h, k). -/
theorem lift_last {n : Nat} (hr : (⟨3, ![R, 8, n]⟩ : Shape).Reduces [2] ⟨2, ![R, 8]⟩) (r : Fin R) (h : Fin 8)
    (k : Fin ((⟨3, ![R, 8, n]⟩ : Shape).size 2)) : hr.lift (ix2 r h) k = ix3 r h (⟨k.val, k.isLt⟩ : Fin n) := by
  funext c; apply Fin.ext
  match c with
  | ⟨0, _⟩ => rfl
  | ⟨1, _⟩ => rfl
  | ⟨2, _⟩ => rfl

/-- A sum along the last axis of [R, 8, n], from the zero word. -/
theorem lane_sum {n : Nat} (src : FVec Ideal ⟨3, ![R, 8, n]⟩ .f32) (hr : (⟨3, ![R, 8, n]⟩ : Shape).Reduces [2] ⟨2, ![R, 8]⟩)
    (hφ : FKind.Formats .f32) (hacc : (0x00000000#32 : BitVec 32) = FKind.add.neutral .f32 hφ) (r : Fin R) (h : Fin 8) :
    multiReduction .add [2] ⟨2, ![R, 8]⟩ src 0x00000000#32 hr hφ hacc (ix2 r h) = ∑ k : Fin n, src (ix3 r h k) := by
  refine (Ideal.multiReduction_add_single src 0x00000000#32 hr hφ hacc (ix2 r h)).trans ?_
  exact Finset.sum_congr rfl fun k _ => congrArg src (lift_last hr r h k)

/-- A maximum along the last axis of [R, 8, 8], from the word of -∞: the fold of max from it over the eight entries. -/
theorem lane_max (src : FVec Ideal ⟨3, ![R, 8, 8]⟩ .f32) (hr : (⟨3, ![R, 8, 8]⟩ : Shape).Reduces [2] ⟨2, ![R, 8]⟩)
    (hφ : FKind.Formats .f32) (hacc : (0xFF800000#32 : BitVec 32) = FKind.maximumf.neutral .f32 hφ) (r : Fin R) (h : Fin 8) :
    multiReduction .maximumf [2] ⟨2, ![R, 8]⟩ src 0xFF800000#32 hr hφ hacc (ix2 r h)
      = (Finset.univ : Finset (Fin 8)).fold max bottom fun g => src (ix3 r h g) := by
  refine (Ideal.multiReduction_maximumf_single src 0xFF800000#32 hr hφ hacc (ix2 r h)).trans ?_
  exact congrArg (fun f => Finset.fold max bottom f (Finset.univ : Finset (Fin 8)))
    (funext fun k => congrArg src (lift_last hr r h k))

end Cert.HeadLayout

end
-- ==== Proof.LibDotRows.lean ====
/-
  A matrix product of rows against rows, [M, K] × [N, K] → [M, N], read at an index over the extended reals.

  With the contraction on axis 1 of BOTH operands and no batch axis (x · yᵀ without the transpose being formed), the
  product's entry (p, q) is the sum over k of lhs (p, k) · rhs (q, k): for a matrix unit's product into a zero
  accumulator (matmul_zero_apply) and for the host's dot_general (dotGeneral_apply) alike, whatever precision or
  schedule key they carry. Both follow from re-indexing the sum over the one-axis contraction shape by its coordinate
  (contr_sum).
-/
import Idealize.ShloMosaic.PureOps.Ideal.Laws
import Idealize.ShloMosaic.Lib.ValueIdx

noncomputable section

open scoped BigOperators

namespace Cert.DotRows

open Idealize.ShloMosaic Idealize.ShloMosaic.ValueIdx

variable {M K N : Nat}

/-- The dimension numbers of the product of rows against rows. -/
abbrev rowsDims (M K N : Nat) (wf : DotDims.WF ⟨2, ![M, K]⟩ ⟨2, ![N, K]⟩ ⟨2, ![M, N]⟩ [1] [1] [0] [0] [] []) :
    DotDims ⟨2, ![M, K]⟩ ⟨2, ![N, K]⟩ ⟨2, ![M, N]⟩ where
  lhsContracting := [1]
  rhsContracting := [1]
  lhsNonContracting := [0]
  rhsNonContracting := [0]
  lhsBatch := []
  rhsBatch := []
  wf := wf

variable (wf : DotDims.WF ⟨2, ![M, K]⟩ ⟨2, ![N, K]⟩ ⟨2, ![M, N]⟩ [1] [1] [0] [0] [] [])

/-- The left operand's row coordinate is the result's row, whatever the contraction index. -/
theorem lhs_row (j : (⟨2, ![M, N]⟩ : Shape).Idx) (r : (rowsDims M K N wf).contr.Idx) :
    ((rowsDims M K N wf).lhsIdx j r 0).val = (j 0).val := by
  unfold DotDims.lhsIdx
  rw [dif_neg (show ¬ (0 : Fin 2) ∈ (rowsDims M K N wf).lhsBatch from List.not_mem_nil),
    dif_pos (show (0 : Fin 2) ∈ (rowsDims M K N wf).lhsNonContracting from List.mem_singleton.mpr rfl)]
  rfl

/-- The right operand's row coordinate is the result's column, whatever the contraction index. -/
theorem rhs_row (j : (⟨2, ![M, N]⟩ : Shape).Idx) (r : (rowsDims M K N wf).contr.Idx) :
    ((rowsDims M K N wf).rhsIdx j r 0).val = (j 1).val := by
  unfold DotDims.rhsIdx
  rw [dif_neg (show ¬ (0 : Fin 2) ∈ (rowsDims M K N wf).rhsBatch from List.not_mem_nil),
    dif_pos (show (0 : Fin 2) ∈ (rowsDims M K N wf).rhsNonContracting from List.mem_singleton.mpr rfl)]
  rfl

/-- The sum over the contraction shape is the sum over k of lhs (p, k) · rhs (q, k). -/
theorem contr_sum (lhs : (⟨2, ![M, K]⟩ : Shape).Idx → EReal) (rhs : (⟨2, ![N, K]⟩ : Shape).Idx → EReal) (p : Fin M) (q : Fin N) :
    ∑ k : (rowsDims M K N wf).contr.Idx, lhs ((rowsDims M K N wf).lhsIdx (ix2 p q) k) * rhs ((rowsDims M K N wf).rhsIdx (ix2 p q) k)
      = ∑ k : Fin K, lhs (ix2 p k) * rhs (ix2 q k) := by
  rw [← Equiv.sum_comp (contrEquiv1 (rowsDims M K N wf) K rfl rfl).symm]
  refine Finset.sum_congr rfl fun k _ => ?_
  have hk := contrEquiv1_symm_val (rowsDims M K N wf) K rfl rfl k
  have el : (rowsDims M K N wf).lhsIdx (ix2 p q) ((contrEquiv1 (rowsDims M K N wf) K rfl rfl).symm k) = ix2 p k :=
    funext fun a => Fin.ext (by
      match a with
      | ⟨0, _⟩ => exact lhs_row wf _ _
      | ⟨1, _⟩ => exact ((rowsDims M K N wf).lhsIdx_val_of_single rfl _ _).trans hk)
  have er : (rowsDims M K N wf).rhsIdx (ix2 p q) ((contrEquiv1 (rowsDims M K N wf) K rfl rfl).symm k) = ix2 q k :=
    funext fun a => Fin.ext (by
      match a with
      | ⟨0, _⟩ => exact rhs_row wf _ _
      | ⟨1, _⟩ => exact ((rowsDims M K N wf).rhsIdx_val_of_single rfl _ _).trans hk)
  rw [el, er]

/-- A MATRIX UNIT'S PRODUCT INTO A ZERO ACCUMULATOR, read at (p, q), for ANY dimension numbers of the rows-against-rows form. -/
theorem matmul_zero_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (lhs : FVec Ideal ⟨2, ![M, K]⟩ φ₁) (rhs : FVec Ideal ⟨2, ![N, K]⟩ φ₂) (p : Fin M) (q : Fin N) :
    FloatOps.matmul d prec lhs rhs (constant (F := Ideal) ⟨2, ![M, N]⟩ .f32 0x00000000#32) (ix2 p q)
      = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.matmul_constant_zero_apply]
  exact contr_sum wf lhs rhs p q

/-- THE HOST'S dot_general, read at (p, q), for ANY dimension numbers of the rows-against-rows form. -/
theorem dotGeneral_apply {φ₁ φ₂ : FTy} (d : DotDims ⟨2, ![M, K]⟩ ⟨2, ![N, K]⟩ ⟨2, ![M, N]⟩)
    (h1 : d.lhsContracting = [1]) (h2 : d.rhsContracting = [1]) (h3 : d.lhsNonContracting = [0])
    (h4 : d.rhsNonContracting = [0]) (h5 : d.lhsBatch = []) (h6 : d.rhsBatch = [])
    (prec : Option ContractPrecision) (sched : HostSchedule) (lhs : FVec Ideal ⟨2, ![M, K]⟩ φ₁) (rhs : FVec Ideal ⟨2, ![N, K]⟩ φ₂)
    (p : Fin M) (q : Fin N) :
    FloatOps.dotGeneral d prec sched lhs rhs (ix2 p q) = ∑ k : Fin K, lhs (ix2 p k) * rhs (ix2 q k) := by
  obtain ⟨lc, rc, ln, rn, lb, rb, wf⟩ := d
  dsimp only at h1 h2 h3 h4 h5 h6
  subst h1 h2 h3 h4 h5 h6
  rw [Ideal.dotGeneral_apply]
  exact contr_sum wf lhs rhs p q

end Cert.DotRows

end
-- ==== Proof.TokenProj.lean ====
/-
  The three projections of a block of 128 tokens, read at an index.

  The body forms q = x·Wqᵀ + bq from the block of x, and k = y·Wkᵀ + bk and v = y·Wvᵀ + bv from the block of y, each a
  product of rows against the rows of the weight (the contraction runs along axis 1 of both operands), the bias row
  spread over the 128 tokens, and the result viewed as eight heads of 256 lanes. At (r, h, d) each is the linear layer
  of token r's row, at column 256·h + d. The weights pass through a narrower float format on the way, which changes
  nothing over the extended reals.
-/
import proofs.«139374_j6485400617413_2_alg».proof.Proof.Gen.KernelIdeal.Skeleton
import proofs.«139374_j6485400617413_2_alg».proof.Proof.TokenHeads
import proofs.«139374_j6485400617413_2_alg».proof.Proof.HeadLayout
import proofs.«139374_j6485400617413_2_alg».proof.Proof.LibDotRows
import Idealize.ShloMosaic.Lib.Pipeline.Value
import Idealize.ShloMosaic.Lib.ValueIdx
import Idealize.ShloMosaic.Lib.ValueLayout

noncomputable section

open scoped BigOperators

namespace Cert.TokenProj

open Idealize.ShloMosaic Idealize.ShloMosaic.ValueIdx Cert.KernelIdeal Cert.KernelIdeal.Gen Cert.TokenHeads Cert.HeadLayout

variable [Cert.KernelIdeal.Facts]

/-- Row r of a block, as a function of the column. -/
abbrev row (x : S128x2048.Idx → EReal) (r : Fin 128) : Fin 2048 → EReal := fun k => x (ix2 r k)
/-- A weight as a function of (output column, input column). -/
abbrev mat (W : S2048x2048.Idx → EReal) : Fin 2048 → Fin 2048 → EReal := fun j k => W (ix2 j k)
/-- A bias row as a function of the column. -/
abbrev bias (b : S1x2048.Idx → EReal) : Fin 2048 → EReal := fun j => b (ix2 (0 : Fin 1) j)

/-- x·Wᵀ + b over a block, at (r, c): the linear layer of row r at column c. -/
theorem linear_apply (x : FVec Ideal S128x2048 .bf16) (W : FVec Ideal S2048x2048 .bf16) (b : FVec Ideal S1x2048 .f32)
    (hW : S2048x2048.ShapeCasts S2048x2048) (hb : S1x2048.ShapeCasts S1x2048) (hbc : S1x2048.Broadcasts S128x2048)
    (r : Fin 128) (c : Fin 2048) :
    addf (matmul dot_S128x2048_S2048x2048_S128x2048_1_1_0_0_n_n none x (shapeCast S2048x2048 W hW)
        (constant S128x2048 .f32 0x00000000#32)) (broadcastTo S128x2048 (shapeCast S1x2048 b hb) hbc) (ix2 r c)
      = lin (fun k => x (ix2 r k)) (mat W) (bias b) c := by
  rw [addf_apply, shapeCast_self, shapeCast_self]
  unfold lin
  refine congrArg₂ (· + ·) ?_ ?_
  · exact Cert.DotRows.matmul_zero_apply _ rfl rfl rfl rfl rfl rfl none x W r c
  · exact broadcastTo_1b_ab_apply b hbc r c

/-- The query block at (r, h, d). -/
theorem query_apply (x0 : Vec Ideal S128x2048 .f32) (W : Vec Ideal S2048x2048 .bf16) (b : Vec Ideal S1x2048 .f32)
    (r : Fin 128) (h : Fin 8) (d : Fin 256) :
    k0_pay3 x0 W b (ix3 r h d) = lin (row x0 r) (mat W) (bias b) (col h d) := by
  unfold k0_pay3
  refine (cast_heads _ _ r h d).trans ?_
  exact linear_apply _ W b _ _ _ r (col h d)

/-- The key block at (r, h, d). -/
theorem key_apply (x1 : Vec Ideal S128x2048 .f32) (W : Vec Ideal S2048x2048 .bf16) (b : Vec Ideal S1x2048 .f32)
    (r : Fin 128) (h : Fin 8) (d : Fin 256) :
    k0_pay4 x1 W b (ix3 r h d) = lin (row x1 r) (mat W) (bias b) (col h d) := by
  unfold k0_pay4 k0_pay2
  refine (cast_heads _ _ r h d).trans ?_
  exact linear_apply _ W b _ _ _ r (col h d)

/-- The value block at (r, h, d). -/
theorem value_apply (x1 : Vec Ideal S128x2048 .f32) (W : Vec Ideal S2048x2048 .bf16) (b : Vec Ideal S1x2048 .f32)
    (r : Fin 128) (h : Fin 8) (d : Fin 256) :
    k0_pay5 x1 W b (ix3 r h d) = lin (row x1 r) (mat W) (bias b) (col h d) := by
  unfold k0_pay5 k0_pay2
  refine (cast_heads _ _ r h d).trans ?_
  exact linear_apply _ W b _ _ _ r (col h d)

end Cert.TokenProj

end
-- ==== Proof.TokenScores.lean ====
/-
  The eight score columns of a block of 128 tokens, read at an index.

  For each key head g the body multiplies the query block, lane by lane, with head g of the key block spread over the
  eight query heads, sums along the 256 lanes and scales by 1/16: at (r, h) that is the score of head h of token r's
  query against head g of its key. Each column is then given a unit last axis, ready to be laid beside the others.
-/
import proofs.«139374_j6485400617413_2_alg».proof.Proof.Gen.KernelIdeal.Skeleton
import proofs.«139374_j6485400617413_2_alg».proof.Proof.TokenHeads
import proofs.«139374_j6485400617413_2_alg».proof.Proof.HeadLayout
import proofs.«139374_j6485400617413_2_alg».proof.Proof.LibDotRows
import proofs.«139374_j6485400617413_2_alg».proof.Proof.TokenProj
import Idealize.ShloMosaic.Lib.Pipeline.Value
import Idealize.ShloMosaic.Lib.ValueIdx
import Idealize.ShloMosaic.Lib.ValueLayout

noncomputable section

open scoped BigOperators

namespace Cert.TokenScores

open Idealize.ShloMosaic Idealize.ShloMosaic.ValueIdx Cert.KernelIdeal Cert.KernelIdeal.Gen Cert.TokenHeads Cert.HeadLayout
open Cert.TokenProj

variable [Cert.KernelIdeal.Facts]

/-- One score column: the lane sum of the query block times head g of the key block, scaled. -/
theorem score_col (g : Nat) (hg : g < 8) (Q K : FVec Ideal S128x8x256 .f32)
    (hs : S128x8x256.Slices ![0, g, 0] S128x1x256) (hb : S128x1x256.Broadcasts S128x8x256)
    (hr : S128x8x256.Reduces [2] S128x8) (hφ : FKind.Formats .f32)
    (hacc : (0x00000000#32 : BitVec 32) = FKind.add.neutral .f32 hφ) (r : Fin 128) (h : Fin 8) :
    mulf (multiReduction .add [2] S128x8 (mulf Q (broadcastTo S128x8x256 (extractStridedSlice S128x1x256 ![0, g, 0] K hs) hb))
        0x00000000#32 hr hφ hacc) (broadcast S128x8 (Scalar.ofBits .f32 0x3D800000#32)) (ix2 r h)
      = (∑ d : Fin 256, Q (ix3 r h d) * K (ix3 r (⟨g, hg⟩ : Fin 8) d)) * scale := by
  rw [mulf_apply]
  refine congrArg₂ (· * ·) ?_ rfl
  refine (lane_sum _ hr hφ hacc r h).trans (Finset.sum_congr rfl fun d _ => ?_)
  rw [mulf_apply, bcast_head, head_slice g hg]

/-- With the query and key blocks the projections of the blocks of x and y, a score column at (r, h) is the
    specification's score of token r. -/
theorem score_of_proj (x0 x1 : Vec Ideal S128x2048 .f32) (Wq : Vec Ideal S2048x2048 .bf16) (bq : Vec Ideal S1x2048 .f32)
    (Wk : Vec Ideal S2048x2048 .bf16) (bk : Vec Ideal S1x2048 .f32) (r : Fin 128) (h g : Fin 8) :
    (∑ d : Fin 256, k0_pay3 x0 Wq bq (ix3 r h d) * k0_pay4 x1 Wk bk (ix3 r g d)) * scale
      = score (lin (row x0 r) (mat Wq) (bias bq)) (lin (row x1 r) (mat Wk) (bias bk)) h g := by
  unfold score
  refine congrArg₂ (· * ·) (Finset.sum_congr rfl fun d _ => ?_) rfl
  rw [query_apply, key_apply]

/-- Column 0, formed from the blocks directly. -/
theorem col0_apply (x0 x1 : Vec Ideal S128x2048 .f32) (Wq : Vec Ideal S2048x2048 .bf16) (bq : Vec Ideal S1x2048 .f32)
    (Wk : Vec Ideal S2048x2048 .bf16) (bk : Vec Ideal S1x2048 .f32) (r : Fin 128) (h : Fin 8) :
    k0_pay8 (k0_pay6 x0 x1 Wq bq Wk bk) (ix3 r h (0 : Fin 1))
      = (∑ d : Fin 256, k0_pay3 x0 Wq bq (ix3 r h d) * k0_pay4 x1 Wk bk (ix3 r (0 : Fin 8) d)) * scale := by
  unfold k0_pay8 k0_pay6
  refine (cast_unit _ _ r h).trans ?_
  exact score_col 0 (by decide) _ _ _ _ _ _ _ r h

/-- Column 1, whose lane products are formed in one part of the body and summed in the next. -/
theorem col1_apply (x0 x1 : Vec Ideal S128x2048 .f32) (Wq : Vec Ideal S2048x2048 .bf16) (bq : Vec Ideal S1x2048 .f32)
    (Wk : Vec Ideal S2048x2048 .bf16) (bk : Vec Ideal S1x2048 .f32) (r : Fin 128) (h : Fin 8) :
    k0_pay9 (k0_pay7 x0 x1 Wq bq Wk bk) (ix3 r h (0 : Fin 1))
      = (∑ d : Fin 256, k0_pay3 x0 Wq bq (ix3 r h d) * k0_pay4 x1 Wk bk (ix3 r (1 : Fin 8) d)) * scale := by
  unfold k0_pay9 k0_pay7
  refine (cast_unit _ _ r h).trans ?_
  exact score_col 1 (by decide) _ _ _ _ _ _ _ r h

/-- Columns 2 to 7, from the query and key blocks. -/
theorem col2_apply (Q K : FVec Ideal S128x8x256 .f32) (r : Fin 128) (h : Fin 8) :
    k0_pay10 Q K (ix3 r h (0 : Fin 1)) = (∑ d : Fin 256, Q (ix3 r h d) * K (ix3 r (2 : Fin 8) d)) * scale := by
  unfold k0_pay10
  refine (cast_unit _ _ r h).trans ?_
  exact score_col 2 (by decide) Q K _ _ _ _ _ r h

theorem col3_apply (Q K : FVec Ideal S128x8x256 .f32) (r : Fin 128) (h : Fin 8) :
    k0_pay11 Q K (ix3 r h (0 : Fin 1)) = (∑ d : Fin 256, Q (ix3 r h d) * K (ix3 r (3 : Fin 8) d)) * scale := by
  unfold k0_pay11
  refine (cast_unit _ _ r h).trans ?_
  exact score_col 3 (by decide) Q K _ _ _ _ _ r h

theorem col4_apply (Q K : FVec Ideal S128x8x256 .f32) (r : Fin 128) (h : Fin 8) :
    k0_pay12 Q K (ix3 r h (0 : Fin 1)) = (∑ d : Fin 256, Q (ix3 r h d) * K (ix3 r (4 : Fin 8) d)) * scale := by
  unfold k0_pay12
  refine (cast_unit _ _ r h).trans ?_
  exact score_col 4 (by decide) Q K _ _ _ _ _ r h

theorem col5_apply (Q K : FVec Ideal S128x8x256 .f32) (r : Fin 128) (h : Fin 8) :
    k0_pay13 Q K (ix3 r h (0 : Fin 1)) = (∑ d : Fin 256, Q (ix3 r h d) * K (ix3 r (5 : Fin 8) d)) * scale := by
  unfold k0_pay13
  refine (cast_unit _ _ r h).trans ?_
  exact score_col 5 (by decide) Q K _ _ _ _ _ r h

theorem col6_apply (Q K : FVec Ideal S128x8x256 .f32) (r : Fin 128) (h : Fin 8) :
    k0_pay14 Q K (ix3 r h (0 : Fin 1)) = (∑ d : Fin 256, Q (ix3 r h d) * K (ix3 r (6 : Fin 8) d)) * scale := by
  unfold k0_pay14
  refine (cast_unit _ _ r h).trans ?_
  exact score_col 6 (by decide) Q K _ _ _ _ _ r h

theorem col7_apply (Q K : FVec Ideal S128x8x256 .f32) (r : Fin 128) (h : Fin 8) :
    k0_pay15 Q K (ix3 r h (0 : Fin 1)) = (∑ d : Fin 256, Q (ix3 r h d) * K (ix3 r (7 : Fin 8) d)) * scale := by
  unfold k0_pay15
  refine (cast_unit _ _ r h).trans ?_
  exact score_col 7 (by decide) Q K _ _ _ _ _ r h

end Cert.TokenScores

end
-- ==== Proof.TokenSoftmax.lean ====
/-
  The softmax over the eight score columns and the weighted sum of the value heads, for a block of 128 tokens, read
  at an index.

  The eight columns are laid side by side into the [128, 8, 8] score block; along its last axis the body takes the
  maximum (from the word of -∞, then once more against it), subtracts it, exponentiates, sums, and divides: at
  (r, h, g) the softmax weight of key head g among the eight scores of query head h of token r. The output of head h
  is accumulated head by head, from a zero block: the weight column g spread over the 256 lanes times value head g
  spread over the eight query heads.
-/
import proofs.«139374_j6485400617413_2_alg».proof.Proof.Gen.KernelIdeal.Skeleton
import proofs.«139374_j6485400617413_2_alg».proof.Proof.TokenHeads
import proofs.«139374_j6485400617413_2_alg».proof.Proof.HeadLayout
import proofs.«139374_j6485400617413_2_alg».proof.Proof.LibDotRows
import Idealize.ShloMosaic.Lib.Pipeline.Value
import Idealize.ShloMosaic.Lib.ValueIdx
import Idealize.ShloMosaic.Lib.ValueLayout

noncomputable section

open scoped BigOperators

namespace Cert.TokenSoftmax

open Idealize.ShloMosaic Idealize.ShloMosaic.ValueIdx Cert.KernelIdeal Cert.KernelIdeal.Gen Cert.TokenHeads Cert.HeadLayout

variable [Cert.KernelIdeal.Facts]

/-- A score block with its row maximum subtracted, at (r, h, g). -/
theorem shifted_apply (C : FVec Ideal S128x8x8 .f32) (hr : S128x8x8.Reduces [2] S128x8) (hφ : FKind.Formats .f32)
    (hmax : (0xFF800000#32 : BitVec 32) = FKind.maximumf.neutral .f32 hφ)
    (hc : S128x8.ShapeCasts S128x8x1) (hb : S128x8x1.Broadcasts S128x8x8) (r : Fin 128) (h g : Fin 8) :
    subf C (broadcastTo S128x8x8 (shapeCast S128x8x1 (maximumf (broadcast S128x8 (Scalar.ofBits .f32 0xFF800000#32))
        (multiReduction .maximumf [2] S128x8 C 0xFF800000#32 hr hφ hmax)) hc) hb) (ix3 r h g)
      = C (ix3 r h g) - top (fun g' => C (ix3 r h g')) := by
  rw [subf_apply, bcast_cols, cast_unit, maximumf_apply, broadcast_apply]
  unfold top
  exact congrArg (fun m => C (ix3 r h g) - max bottom m) (lane_max C hr hφ hmax r h)

/-- The softmax of a score block along its last axis, at (r, h, g). -/
theorem softmax_of_block (C : FVec Ideal S128x8x8 .f32) (hr : S128x8x8.Reduces [2] S128x8) (hφ hφ' : FKind.Formats .f32)
    (hmax : (0xFF800000#32 : BitVec 32) = FKind.maximumf.neutral .f32 hφ)
    (hadd : (0x00000000#32 : BitVec 32) = FKind.add.neutral .f32 hφ')
    (hc : S128x8.ShapeCasts S128x8x1) (hb : S128x8x1.Broadcasts S128x8x8) (r : Fin 128) (h g : Fin 8) :
    divf (exp (subf C (broadcastTo S128x8x8 (shapeCast S128x8x1 (maximumf (broadcast S128x8 (Scalar.ofBits .f32 0xFF800000#32))
          (multiReduction .maximumf [2] S128x8 C 0xFF800000#32 hr hφ hmax)) hc) hb)))
        (broadcastTo S128x8x8 (shapeCast S128x8x1 (multiReduction .add [2] S128x8
          (exp (subf C (broadcastTo S128x8x8 (shapeCast S128x8x1 (maximumf (broadcast S128x8 (Scalar.ofBits .f32 0xFF800000#32))
            (multiReduction .maximumf [2] S128x8 C 0xFF800000#32 hr hφ hmax)) hc) hb))) 0x00000000#32 hr hφ' hadd) hc) hb)
        (ix3 r h g)
      = weight (fun g' => C (ix3 r h g')) g := by
  rw [divf_apply, bcast_cols, cast_unit]
  unfold weight
  refine congrArg₂ Ideal.div ?_ ?_
  · exact congrArg Ideal.exp (shifted_apply C hr hφ hmax hc hb r h g)
  · refine (lane_sum _ hr hφ' hadd r h).trans (Finset.sum_congr rfl fun g' _ => ?_)
    exact congrArg Ideal.exp (shifted_apply C hr hφ hmax hc hb r h g')

/-- The weights of a block from its eight score columns, at (r, h, g). -/
theorem weights_apply (s0 s1 s2 s3 s4 s5 s6 s7 : FVec Ideal S128x8x1 .f32) (r : Fin 128) (h g : Fin 8) :
    k0_pay16 s0 s1 s2 s3 s4 s5 s6 s7 (ix3 r h g)
      = weight (fun g' => (![s0, s1, s2, s3, s4, s5, s6, s7] g') (ix3 r h (0 : Fin 1))) g := by
  unfold k0_pay16
  refine (softmax_of_block _ _ _ _ _ _ _ _ r h g).trans ?_
  exact congrArg (fun s => weight s g) (funext fun g' => concat8 s0 s1 s2 s3 s4 s5 s6 s7 _ r h g')

/-- One term of the weighted sum: weight column g over the lanes times value head g over the query heads. -/
theorem head_term (g : Nat) (hg : g < 8) (A : FVec Ideal S128x8x8 .f32) (V : FVec Ideal S128x8x256 .f32)
    (hsA : S128x8x8.Slices ![0, 0, g] S128x8x1) (hbA : S128x8x1.Broadcasts S128x8x256)
    (hsV : S128x8x256.Slices ![0, g, 0] S128x1x256) (hbV : S128x1x256.Broadcasts S128x8x256)
    (r : Fin 128) (h : Fin 8) (d : Fin 256) :
    mulf (broadcastTo S128x8x256 (extractStridedSlice S128x8x1 ![0, 0, g] A hsA) hbA)
        (broadcastTo S128x8x256 (extractStridedSlice S128x1x256 ![0, g, 0] V hsV) hbV) (ix3 r h d)
      = A (ix3 r h (⟨g, hg⟩ : Fin 8)) * V (ix3 r (⟨g, hg⟩ : Fin 8) d) := by
  rw [mulf_apply, bcast_lanes, col_slice g hg, bcast_head, head_slice g hg]

/-- The sum over the first seven value heads, accumulated from the zero block, at (r, h, d). -/
theorem partial_mix_apply (V : FVec Ideal S128x8x256 .f32) (s0 s1 s2 s3 s4 s5 s6 s7 : FVec Ideal S128x8x1 .f32)
    (r : Fin 128) (h : Fin 8) (d : Fin 256) :
    k0_pay17 V s0 s1 s2 s3 s4 s5 s6 s7 (ix3 r h d)
      = Ideal.ofBits .f32 0x00000000#32
        + k0_pay16 s0 s1 s2 s3 s4 s5 s6 s7 (ix3 r h (0 : Fin 8)) * V (ix3 r (0 : Fin 8) d)
        + k0_pay16 s0 s1 s2 s3 s4 s5 s6 s7 (ix3 r h (1 : Fin 8)) * V (ix3 r (1 : Fin 8) d)
        + k0_pay16 s0 s1 s2 s3 s4 s5 s6 s7 (ix3 r h (2 : Fin 8)) * V (ix3 r (2 : Fin 8) d)
        + k0_pay16 s0 s1 s2 s3 s4 s5 s6 s7 (ix3 r h (3 : Fin 8)) * V (ix3 r (3 : Fin 8) d)
        + k0_pay16 s0 s1 s2 s3 s4 s5 s6 s7 (ix3 r h (4 : Fin 8)) * V (ix3 r (4 : Fin 8) d)
        + k0_pay16 s0 s1 s2 s3 s4 s5 s6 s7 (ix3 r h (5 : Fin 8)) * V (ix3 r (5 : Fin 8) d)
        + k0_pay16 s0 s1 s2 s3 s4 s5 s6 s7 (ix3 r h (6 : Fin 8)) * V (ix3 r (6 : Fin 8) d) := by
  unfold k0_pay17
  simp only [addf_apply]
  rw [head_term 0 (by decide), head_term 1 (by decide), head_term 2 (by decide), head_term 3 (by decide),
    head_term 4 (by decide), head_term 5 (by decide), head_term 6 (by decide)]
  rfl

/-- The last weight column, cut out for the eighth term, at (r, h). -/
theorem last_weight_apply (s0 s1 s2 s3 s4 s5 s6 s7 : FVec Ideal S128x8x1 .f32) (r : Fin 128) (h : Fin 8) :
    k0_pay18 s0 s1 s2 s3 s4 s5 s6 s7 (ix3 r h (0 : Fin 1)) = k0_pay16 s0 s1 s2 s3 s4 s5 s6 s7 (ix3 r h (7 : Fin 8)) := by
  unfold k0_pay18
  exact col_slice 7 (by decide) _ _ r h

end Cert.TokenSoftmax

end
-- ==== Proof.TokenBody.lean ====
/-
  What one grid step leaves in the output block, read at an index: row r of the block is the one-token function of
  row r of the blocks of x and y and of the weights and bias rows.

  The step's value is assembled from the pieces read before: the three projections, the eight score columns, the
  softmax weights, the sum over the value heads — seven terms accumulated from the zero block in one part of the body
  and the eighth added in the next —, the attended block viewed as [128, 2048] again, the output projection with its
  bias row, and the residual block of x. The accumulated sum 0 + a₀v₀ + … + a₇v₇ is the sum over the eight heads.
-/
import proofs.«139374_j6485400617413_2_alg».proof.Proof.Gen.KernelIdeal.Frame
import proofs.«139374_j6485400617413_2_alg».proof.Proof.TokenHeads
import proofs.«139374_j6485400617413_2_alg».proof.Proof.HeadLayout
import proofs.«139374_j6485400617413_2_alg».proof.Proof.TokenProj
import proofs.«139374_j6485400617413_2_alg».proof.Proof.TokenScores
import proofs.«139374_j6485400617413_2_alg».proof.Proof.TokenSoftmax
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.TokenBody

open Idealize.ShloMosaic Idealize.ShloMosaic.ValueIdx Cert.KernelIdeal Cert.KernelIdeal.Gen Cert.TokenHeads Cert.HeadLayout
open Cert.TokenProj Cert.TokenScores Cert.TokenSoftmax

variable [Cert.KernelIdeal.Facts]

/-- The output projection of the attended block plus the residual, at (r, j): the attended block is the seven-term
    sum plus the eighth term, viewed as [128, 2048]. -/
theorem out_apply (x0 : Vec Ideal S128x2048 .f32) (V acc : FVec Ideal S128x8x256 .f32) (a7 : FVec Ideal S128x8x1 .f32)
    (W : Vec Ideal S2048x2048 .bf16) (b : Vec Ideal S1x2048 .f32) (r : Fin 128) (j : Fin 2048) :
    k0_pay1 x0 V acc a7 W b (ix2 r j)
      = lin (fun c => acc (ix3 r (headOf c) (laneOf c)) + a7 (ix3 r (headOf c) (0 : Fin 1)) * V (ix3 r (7 : Fin 8) (laneOf c)))
          (mat W) (bias b) j + x0 (ix2 r j) := by
  unfold k0_pay1
  rw [addf_apply]
  refine congrArg₂ (· + ·) ?_ rfl
  refine (linear_apply _ W b _ _ _ r j).trans ?_
  refine congrArg (fun f => lin f (mat W) (bias b) j) (funext fun c => ?_)
  rw [truncf_apply, cast_cols, addf_apply, mulf_apply, bcast_lanes, bcast_head, head_slice 7 (by decide)]
  rfl

/-- The eight score columns the step forms, at (r, h): column g is the score of head h against head g. -/
theorem column_apply (x0 x1 : Vec Ideal S128x2048 .f32) (Wq : Vec Ideal S2048x2048 .bf16) (bq : Vec Ideal S1x2048 .f32)
    (Wk : Vec Ideal S2048x2048 .bf16) (bk : Vec Ideal S1x2048 .f32) (r : Fin 128) (h g : Fin 8) :
    (![k0_pay8 (k0_pay6 x0 x1 Wq bq Wk bk), k0_pay9 (k0_pay7 x0 x1 Wq bq Wk bk),
        k0_pay10 (k0_pay3 x0 Wq bq) (k0_pay4 x1 Wk bk), k0_pay11 (k0_pay3 x0 Wq bq) (k0_pay4 x1 Wk bk),
        k0_pay12 (k0_pay3 x0 Wq bq) (k0_pay4 x1 Wk bk), k0_pay13 (k0_pay3 x0 Wq bq) (k0_pay4 x1 Wk bk),
        k0_pay14 (k0_pay3 x0 Wq bq) (k0_pay4 x1 Wk bk), k0_pay15 (k0_pay3 x0 Wq bq) (k0_pay4 x1 Wk bk)] g) (ix3 r h (0 : Fin 1))
      = score (lin (row x0 r) (mat Wq) (bias bq)) (lin (row x1 r) (mat Wk) (bias bk)) h g := by
  match g with
  | ⟨0, _⟩ => exact (col0_apply x0 x1 Wq bq Wk bk r h).trans (score_of_proj x0 x1 Wq bq Wk bk r h 0)
  | ⟨1, _⟩ => exact (col1_apply x0 x1 Wq bq Wk bk r h).trans (score_of_proj x0 x1 Wq bq Wk bk r h 1)
  | ⟨2, _⟩ => exact (col2_apply _ _ r h).trans (score_of_proj x0 x1 Wq bq Wk bk r h 2)
  | ⟨3, _⟩ => exact (col3_apply _ _ r h).trans (score_of_proj x0 x1 Wq bq Wk bk r h 3)
  | ⟨4, _⟩ => exact (col4_apply _ _ r h).trans (score_of_proj x0 x1 Wq bq Wk bk r h 4)
  | ⟨5, _⟩ => exact (col5_apply _ _ r h).trans (score_of_proj x0 x1 Wq bq Wk bk r h 5)
  | ⟨6, _⟩ => exact (col6_apply _ _ r h).trans (score_of_proj x0 x1 Wq bq Wk bk r h 6)
  | ⟨7, _⟩ => exact (col7_apply _ _ r h).trans (score_of_proj x0 x1 Wq bq Wk bk r h 7)

/-- The step's weight block at (r, h, g): the softmax weight of the scores of head h of token r. -/
theorem block_weights (x0 x1 : Vec Ideal S128x2048 .f32) (Wq : Vec Ideal S2048x2048 .bf16) (bq : Vec Ideal S1x2048 .f32)
    (Wk : Vec Ideal S2048x2048 .bf16) (bk : Vec Ideal S1x2048 .f32) (r : Fin 128) (h g : Fin 8) :
    k0_pay16 (k0_pay8 (k0_pay6 x0 x1 Wq bq Wk bk)) (k0_pay9 (k0_pay7 x0 x1 Wq bq Wk bk))
        (k0_pay10 (k0_pay3 x0 Wq bq) (k0_pay4 x1 Wk bk)) (k0_pay11 (k0_pay3 x0 Wq bq) (k0_pay4 x1 Wk bk))
        (k0_pay12 (k0_pay3 x0 Wq bq) (k0_pay4 x1 Wk bk)) (k0_pay13 (k0_pay3 x0 Wq bq) (k0_pay4 x1 Wk bk))
        (k0_pay14 (k0_pay3 x0 Wq bq) (k0_pay4 x1 Wk bk)) (k0_pay15 (k0_pay3 x0 Wq bq) (k0_pay4 x1 Wk bk)) (ix3 r h g)
      = weight (score (lin (row x0 r) (mat Wq) (bias bq)) (lin (row x1 r) (mat Wk) (bias bk)) h) g := by
  rw [weights_apply]
  exact congrArg (fun s => weight s g) (funext fun g' => column_apply x0 x1 Wq bq Wk bk r h g')

/-- The offsets of a whole-block access are all zero. -/
theorem origin : (![0, 0] : Fin 2 → Nat) = fun _ => 0 := funext fun a => by fin_cases a <;> rfl

/-- ROW r OF THE OUTPUT BLOCK is the one-token function of row r of the blocks of x and y. -/
theorem body_token (x0 x1 : Vec Ideal S128x2048 .f32) (x2 : Vec Ideal S2048x2048 .bf16) (x3 : Vec Ideal S1x2048 .f32)
    (x4 : Vec Ideal S2048x2048 .bf16) (x5 : Vec Ideal S1x2048 .f32) (x6 : Vec Ideal S2048x2048 .bf16) (x7 : Vec Ideal S1x2048 .f32)
    (x8 : Vec Ideal S2048x2048 .bf16) (x9 : Vec Ideal S1x2048 .f32) (r : Fin 128) (j : Fin 2048) :
    out0_10 x0 x1 x2 x3 x4 x5 x6 x7 x8 x9 (ix2 r j)
      = token (row x0 r) (row x1 r) (mat x2) (bias x3) (mat x4) (bias x5) (mat x6) (bias x7) (mat x8) (bias x9) j := by
  unfold out0_10
  rw [View.canon_unit_zero origin]
  simp only [View.ld_unit_zero (S := S128x2048) origin, View.ld_unit_zero (S := S2048x2048) origin,
    View.ld_unit_zero (S := S1x2048) origin]
  rw [out_apply]
  unfold token
  refine congrArg₂ (· + ·) ?_ rfl
  refine congrArg (fun f => lin f (mat x8) (bias x9) j) (funext fun c => ?_)
  rw [partial_mix_apply, last_weight_apply]
  unfold attend mix
  rw [Fin.sum_univ_eight, Ideal.ofBits_zero_f32, zero_add]
  simp only [block_weights, value_apply]

end Cert.TokenBody

end
-- ==== Proof.KernelArray.lean ====
/-
  From blocks to the array: the kernel's result array is the one-token function of TokenHeads, row by row.

  The grid has 64 points; point t stages rows 128·t … 128·t + 127 of x and of y, the four weights whole (each passed
  through a narrower float format first, the identity over the extended reals) and the four biases as single rows,
  and writes back rows 128·t … 128·t + 127 of the result. Row r of what point t writes back is the one-token function
  of row r of its blocks, that is of row 128·t + r of x and y; the 64 blocks of 128 rows cover the 8192 rows, so the
  array ends holding the one-token function of every row.
-/
import proofs.«139374_j6485400617413_2_alg».proof.Proof.Gen.KernelIdeal.Value
import proofs.«139374_j6485400617413_2_alg».proof.Proof.TokenBody
import proofs.«139374_j6485400617413_2_alg».proof.Proof.TokenHeads
import Idealize.ShloMosaic.Lib.Pipeline.Value
import Idealize.ShloMosaic.Lib.StableHlo.Run
import Idealize.ShloMosaic.Lib.ValueIdx
import Idealize.ShloMosaic.Lib.ValueLayout

noncomputable section

namespace Cert.KernelArray

open Cert.KernelIdeal Cert.KernelIdeal.Gen Cert.KernelIdeal.Value Idealize.ShloMosaic Idealize.ShloMosaic.TcCoe Idealize.SL.Sem
open Idealize.ShloMosaic.ValueIdx Cert.TokenHeads Cert.TokenProj
open Idealize.ShloMosaic.Pipeline (Dat)

variable (m : (ℓ : Loc nD τ sig) → Buf (Elt Ideal) ℓ) (ρ : Dev nD → PrngReg)

/-! ## The arrays the region finds -/

/-- A weight as the region finds it: the argument passed through the narrower float format, which changes nothing
    over the extended reals. -/
theorem weight_q (c : Dev nD) :
    @Eq (S2048x2048.Idx → EReal) (V m c main_v0) (m ((c : Thread nD τ).loc main_arg2)) := by
  dsimp only [Gen.V, Gen.hostOps0]; after_results; rfl
theorem weight_k (c : Dev nD) :
    @Eq (S2048x2048.Idx → EReal) (V m c main_v1) (m ((c : Thread nD τ).loc main_arg4)) := by
  dsimp only [Gen.V, Gen.hostOps0]; after_results; rfl
theorem weight_v (c : Dev nD) :
    @Eq (S2048x2048.Idx → EReal) (V m c main_v2) (m ((c : Thread nD τ).loc main_arg6)) := by
  dsimp only [Gen.V, Gen.hostOps0]; after_results; rfl
theorem weight_o (c : Dev nD) :
    @Eq (S2048x2048.Idx → EReal) (V m c main_v3) (m ((c : Thread nD τ).loc main_arg8)) := by
  dsimp only [Gen.V, Gen.hostOps0]; after_results; rfl

/-- A bias as the region finds it: the argument vector as one row. -/
theorem bias_q (c : Dev nD) : (V m c main_v4 : S1x2048.Idx → EReal)
    = shapeCast S1x2048 (m ((c : Thread nD τ).loc main_arg3)) shapeCasts_S2048_S1x2048 := by
  dsimp only [Gen.V, Gen.hostOps0]; after_results; rfl
theorem bias_k (c : Dev nD) : (V m c main_v5 : S1x2048.Idx → EReal)
    = shapeCast S1x2048 (m ((c : Thread nD τ).loc main_arg5)) shapeCasts_S2048_S1x2048 := by
  dsimp only [Gen.V, Gen.hostOps0]; after_results; rfl
theorem bias_v (c : Dev nD) : (V m c main_v6 : S1x2048.Idx → EReal)
    = shapeCast S1x2048 (m ((c : Thread nD τ).loc main_arg7)) shapeCasts_S2048_S1x2048 := by
  dsimp only [Gen.V, Gen.hostOps0]; after_results; rfl
theorem bias_o (c : Dev nD) : (V m c main_v7 : S1x2048.Idx → EReal)
    = shapeCast S1x2048 (m ((c : Thread nD τ).loc main_arg9)) shapeCasts_S2048_S1x2048 := by
  dsimp only [Gen.V, Gen.hostOps0]; after_results; rfl

/-! ## The index maps, decided over the grid -/

/-- Point t's blocks of x, of y and of the result are block t along the rows, -/
theorem index_rows : ∀ t : Fin cfg0.N,
    win0_0.index t (0 : Fin 2) = t.val ∧ win0_0.index t (1 : Fin 2) = 0
    ∧ win0_1.index t (0 : Fin 2) = t.val ∧ win0_1.index t (1 : Fin 2) = 0
    ∧ win0_10.index t (0 : Fin 2) = t.val ∧ win0_10.index t (1 : Fin 2) = 0 :=
  (by decide +kernel : ∀ t : Fin grid0.N, _)

/-- each weight has its one block, -/
theorem index_weights : ∀ t : Fin cfg0.N,
    win0_2.index t (0 : Fin 2) = 0 ∧ win0_2.index t (1 : Fin 2) = 0
    ∧ win0_4.index t (0 : Fin 2) = 0 ∧ win0_4.index t (1 : Fin 2) = 0
    ∧ win0_6.index t (0 : Fin 2) = 0 ∧ win0_6.index t (1 : Fin 2) = 0
    ∧ win0_8.index t (0 : Fin 2) = 0 ∧ win0_8.index t (1 : Fin 2) = 0 :=
  (by decide +kernel : ∀ t : Fin grid0.N, _)

/-- and so has each bias row. -/
theorem index_biases : ∀ t : Fin cfg0.N,
    win0_3.index t (0 : Fin 2) = 0 ∧ win0_3.index t (1 : Fin 2) = 0
    ∧ win0_5.index t (0 : Fin 2) = 0 ∧ win0_5.index t (1 : Fin 2) = 0
    ∧ win0_7.index t (0 : Fin 2) = 0 ∧ win0_7.index t (1 : Fin 2) = 0
    ∧ win0_9.index t (0 : Fin 2) = 0 ∧ win0_9.index t (1 : Fin 2) = 0 :=
  (by decide +kernel : ∀ t : Fin grid0.N, _)

/-! ## The blocks, read at an index -/

/-- Row r of point t's block of x is row 128·t + r of x. -/
theorem block_x (c : Dev nD) (t : Fin cfg0.N) (r : Fin 128) (k : Fin 2048) (R : Fin 8192) (hR : R.val = 128 * t.val + r.val) :
    (iblk m c 0 t : Vec Ideal S128x2048 .f32) (ix2 r k)
      = (m ((c : Thread nD τ).loc main_arg0) : S8192x2048.Idx → EReal) (ix2 R k) := by
  obtain ⟨e0, e1, -⟩ := index_rows t
  unfold iblk
  rw [View.read_apply]
  show V m c main_arg0 _ = _
  rw [V_main_arg0]
  congr 1
  funext a
  apply Fin.ext
  match a with
  | ⟨0, _⟩ => show win0_0.index t (0 : Fin 2) * 128 + 1 * r.val = R.val; rw [e0, hR]; omega
  | ⟨1, _⟩ => show win0_0.index t (1 : Fin 2) * 2048 + 1 * k.val = k.val; rw [e1]; omega

/-- Row r of point t's block of y is row 128·t + r of y. -/
theorem block_y (c : Dev nD) (t : Fin cfg0.N) (r : Fin 128) (k : Fin 2048) (R : Fin 8192) (hR : R.val = 128 * t.val + r.val) :
    (iblk m c 1 t : Vec Ideal S128x2048 .f32) (ix2 r k)
      = (m ((c : Thread nD τ).loc main_arg1) : S8192x2048.Idx → EReal) (ix2 R k) := by
  obtain ⟨-, -, e0, e1, -⟩ := index_rows t
  unfold iblk
  rw [View.read_apply]
  show V m c main_arg1 _ = _
  rw [V_main_arg1]
  congr 1
  funext a
  apply Fin.ext
  match a with
  | ⟨0, _⟩ => show win0_1.index t (0 : Fin 2) * 128 + 1 * r.val = R.val; rw [e0, hR]; omega
  | ⟨1, _⟩ => show win0_1.index t (1 : Fin 2) * 2048 + 1 * k.val = k.val; rw [e1]; omega

/-- The query weight's block is the whole weight. -/
theorem block_wq (c : Dev nD) (t : Fin cfg0.N) (j k : Fin 2048) :
    (iblk m c 2 t : Vec Ideal S2048x2048 .bf16) (ix2 j k)
      = (m ((c : Thread nD τ).loc main_arg2) : S2048x2048.Idx → EReal) (ix2 j k) := by
  obtain ⟨e0, e1, -⟩ := index_weights t
  unfold iblk
  rw [View.read_apply]
  show V m c main_v0 _ = _
  refine (congrFun (weight_q m c) _).trans (congrArg _ ?_)
  funext a
  apply Fin.ext
  match a with
  | ⟨0, _⟩ => show win0_2.index t (0 : Fin 2) * 2048 + 1 * j.val = j.val; rw [e0]; omega
  | ⟨1, _⟩ => show win0_2.index t (1 : Fin 2) * 2048 + 1 * k.val = k.val; rw [e1]; omega

/-- The key weight's block is the whole weight. -/
theorem block_wk (c : Dev nD) (t : Fin cfg0.N) (j k : Fin 2048) :
    (iblk m c 4 t : Vec Ideal S2048x2048 .bf16) (ix2 j k)
      = (m ((c : Thread nD τ).loc main_arg4) : S2048x2048.Idx → EReal) (ix2 j k) := by
  obtain ⟨-, -, e0, e1, -⟩ := index_weights t
  unfold iblk
  rw [View.read_apply]
  show V m c main_v1 _ = _
  refine (congrFun (weight_k m c) _).trans (congrArg _ ?_)
  funext a
  apply Fin.ext
  match a with
  | ⟨0, _⟩ => show win0_4.index t (0 : Fin 2) * 2048 + 1 * j.val = j.val; rw [e0]; omega
  | ⟨1, _⟩ => show win0_4.index t (1 : Fin 2) * 2048 + 1 * k.val = k.val; rw [e1]; omega

/-- The value weight's block is the whole weight. -/
theorem block_wv (c : Dev nD) (t : Fin cfg0.N) (j k : Fin 2048) :
    (iblk m c 6 t : Vec Ideal S2048x2048 .bf16) (ix2 j k)
      = (m ((c : Thread nD τ).loc main_arg6) : S2048x2048.Idx → EReal) (ix2 j k) := by
  obtain ⟨-, -, -, -, e0, e1, -⟩ := index_weights t
  unfold iblk
  rw [View.read_apply]
  show V m c main_v2 _ = _
  refine (congrFun (weight_v m c) _).trans (congrArg _ ?_)
  funext a
  apply Fin.ext
  match a with
  | ⟨0, _⟩ => show win0_6.index t (0 : Fin 2) * 2048 + 1 * j.val = j.val; rw [e0]; omega
  | ⟨1, _⟩ => show win0_6.index t (1 : Fin 2) * 2048 + 1 * k.val = k.val; rw [e1]; omega

/-- The output weight's block is the whole weight. -/
theorem block_wo (c : Dev nD) (t : Fin cfg0.N) (j k : Fin 2048) :
    (iblk m c 8 t : Vec Ideal S2048x2048 .bf16) (ix2 j k)
      = (m ((c : Thread nD τ).loc main_arg8) : S2048x2048.Idx → EReal) (ix2 j k) := by
  obtain ⟨-, -, -, -, -, -, e0, e1⟩ := index_weights t
  unfold iblk
  rw [View.read_apply]
  show V m c main_v3 _ = _
  refine (congrFun (weight_o m c) _).trans (congrArg _ ?_)
  funext a
  apply Fin.ext
  match a with
  | ⟨0, _⟩ => show win0_8.index t (0 : Fin 2) * 2048 + 1 * j.val = j.val; rw [e0]; omega
  | ⟨1, _⟩ => show win0_8.index t (1 : Fin 2) * 2048 + 1 * k.val = k.val; rw [e1]; omega

/-- The query bias's block, a single row, is the bias vector. -/
theorem block_bq (c : Dev nD) (t : Fin cfg0.N) (j : Fin 2048) :
    (iblk m c 3 t : Vec Ideal S1x2048 .f32) (ix2 (0 : Fin 1) j)
      = (m ((c : Thread nD τ).loc main_arg3) : S2048.Idx → EReal) (ix1 j) := by
  obtain ⟨e0, e1, -⟩ := index_biases t
  unfold iblk
  rw [View.read_apply]
  show V m c main_v4 _ = _
  refine (congrFun (bias_q m c) _).trans ?_
  refine Eq.trans (congrArg _ ?_) (shapeCast_a_1a_apply _ shapeCasts_S2048_S1x2048 (0 : Fin 1) j)
  funext a
  apply Fin.ext
  match a with
  | ⟨0, _⟩ => show win0_3.index t (0 : Fin 2) * 1 + 1 * 0 = 0; rw [e0]
  | ⟨1, _⟩ => show win0_3.index t (1 : Fin 2) * 2048 + 1 * j.val = j.val; rw [e1]; omega

/-- The key bias's block is the bias vector. -/
theorem block_bk (c : Dev nD) (t : Fin cfg0.N) (j : Fin 2048) :
    (iblk m c 5 t : Vec Ideal S1x2048 .f32) (ix2 (0 : Fin 1) j)
      = (m ((c : Thread nD τ).loc main_arg5) : S2048.Idx → EReal) (ix1 j) := by
  obtain ⟨-, -, e0, e1, -⟩ := index_biases t
  unfold iblk
  rw [View.read_apply]
  show V m c main_v5 _ = _
  refine (congrFun (bias_k m c) _).trans ?_
  refine Eq.trans (congrArg _ ?_) (shapeCast_a_1a_apply _ shapeCasts_S2048_S1x2048 (0 : Fin 1) j)
  funext a
  apply Fin.ext
  match a with
  | ⟨0, _⟩ => show win0_5.index t (0 : Fin 2) * 1 + 1 * 0 = 0; rw [e0]
  | ⟨1, _⟩ => show win0_5.index t (1 : Fin 2) * 2048 + 1 * j.val = j.val; rw [e1]; omega

/-- The value bias's block is the bias vector. -/
theorem block_bv (c : Dev nD) (t : Fin cfg0.N) (j : Fin 2048) :
    (iblk m c 7 t : Vec Ideal S1x2048 .f32) (ix2 (0 : Fin 1) j)
      = (m ((c : Thread nD τ).loc main_arg7) : S2048.Idx → EReal) (ix1 j) := by
  obtain ⟨-, -, -, -, e0, e1, -⟩ := index_biases t
  unfold iblk
  rw [View.read_apply]
  show V m c main_v6 _ = _
  refine (congrFun (bias_v m c) _).trans ?_
  refine Eq.trans (congrArg _ ?_) (shapeCast_a_1a_apply _ shapeCasts_S2048_S1x2048 (0 : Fin 1) j)
  funext a
  apply Fin.ext
  match a with
  | ⟨0, _⟩ => show win0_7.index t (0 : Fin 2) * 1 + 1 * 0 = 0; rw [e0]
  | ⟨1, _⟩ => show win0_7.index t (1 : Fin 2) * 2048 + 1 * j.val = j.val; rw [e1]; omega

/-- The output bias's block is the bias vector. -/
theorem block_bo (c : Dev nD) (t : Fin cfg0.N) (j : Fin 2048) :
    (iblk m c 9 t : Vec Ideal S1x2048 .f32) (ix2 (0 : Fin 1) j)
      = (m ((c : Thread nD τ).loc main_arg9) : S2048.Idx → EReal) (ix1 j) := by
  obtain ⟨-, -, -, -, -, -, e0, e1⟩ := index_biases t
  unfold iblk
  rw [View.read_apply]
  show V m c main_v7 _ = _
  refine (congrFun (bias_o m c) _).trans ?_
  refine Eq.trans (congrArg _ ?_) (shapeCast_a_1a_apply _ shapeCasts_S2048_S1x2048 (0 : Fin 1) j)
  funext a
  apply Fin.ext
  match a with
  | ⟨0, _⟩ => show win0_9.index t (0 : Fin 2) * 1 + 1 * 0 = 0; rw [e0]
  | ⟨1, _⟩ => show win0_9.index t (1 : Fin 2) * 2048 + 1 * j.val = j.val; rw [e1]; omega

/-! ## What a point writes back -/

/-- The one-token function of the launch contents of the ten arguments, row by row. -/
abbrev result (c : Dev nD) : S8192x2048.Idx → EReal :=
  G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Row r of what the body leaves at point t is the one-token function of row 128·t + r of x and y. -/
theorem point_token (c : Dev nD) (t : Fin cfg0.N) (r : Fin 128) (j : Fin 2048) (R : Fin 8192) (hR : R.val = 128 * t.val + r.val) :
    out0_10 (iblk m c 0 t) (iblk m c 1 t) (iblk m c 2 t) (iblk m c 3 t) (iblk m c 4 t) (iblk m c 5 t) (iblk m c 6 t) (iblk m c 7 t) (iblk m c 8 t) (iblk m c 9 t) (ix2 r j) = result m c (ix2 R j) := by
  refine (Cert.TokenBody.body_token (iblk m c 0 t) (iblk m c 1 t) (iblk m c 2 t) (iblk m c 3 t) (iblk m c 4 t) (iblk m c 5 t) (iblk m c 6 t) (iblk m c 7 t) (iblk m c 8 t) (iblk m c 9 t) r j).trans ?_
  have h0 : row (iblk m c 0 t) r = fun k => ((m ((c : Thread nD τ).loc main_arg0)) : S8192x2048.Idx → EReal) (ix2 R k) :=
    funext fun k => block_x m c t r k R hR
  have h1 : row (iblk m c 1 t) r = fun k => ((m ((c : Thread nD τ).loc main_arg1)) : S8192x2048.Idx → EReal) (ix2 R k) :=
    funext fun k => block_y m c t r k R hR
  have h2 : mat (iblk m c 2 t) = fun j k => ((m ((c : Thread nD τ).loc main_arg2)) : S2048x2048.Idx → EReal) (ix2 j k) :=
    funext fun j => funext fun k => block_wq m c t j k
  have h3 : bias (iblk m c 3 t) = fun j => ((m ((c : Thread nD τ).loc main_arg3)) : S2048.Idx → EReal) (ix1 j) :=
    funext fun j => block_bq m c t j
  have h4 : mat (iblk m c 4 t) = fun j k => ((m ((c : Thread nD τ).loc main_arg4)) : S2048x2048.Idx → EReal) (ix2 j k) :=
    funext fun j => funext fun k => block_wk m c t j k
  have h5 : bias (iblk m c 5 t) = fun j => ((m ((c : Thread nD τ).loc main_arg5)) : S2048.Idx → EReal) (ix1 j) :=
    funext fun j => block_bk m c t j
  have h6 : mat (iblk m c 6 t) = fun j k => ((m ((c : Thread nD τ).loc main_arg6)) : S2048x2048.Idx → EReal) (ix2 j k) :=
    funext fun j => funext fun k => block_wv m c t j k
  have h7 : bias (iblk m c 7 t) = fun j => ((m ((c : Thread nD τ).loc main_arg7)) : S2048.Idx → EReal) (ix1 j) :=
    funext fun j => block_bv m c t j
  have h8 : mat (iblk m c 8 t) = fun j k => ((m ((c : Thread nD τ).loc main_arg8)) : S2048x2048.Idx → EReal) (ix2 j k) :=
    funext fun j => funext fun k => block_wo m c t j k
  have h9 : bias (iblk m c 9 t) = fun j => ((m ((c : Thread nD τ).loc main_arg9)) : S2048.Idx → EReal) (ix1 j) :=
    funext fun j => block_bo m c t j
  exact congrFun (congr (congr (congr (congr (congr (congr (congr (congr (congr (congrArg token h0) h1) h2) h3) h4) h5) h6) h7) h8) h9) j

/-- What point t writes back is block t of the result: rows 128·t … 128·t + 127. -/
theorem flushed_eq (c : Dev nD) (t : Fin cfg0.N) :
    (dats m 0 c).flushed 10 t = ((cfg0.win 10).blk t).view.read (Elt Ideal) (result m c) := by
  rw [Value.flushed10]
  have hN : grid0.N = 64 := N_0
  have ht : t.val < 64 := Nat.lt_of_lt_of_eq (show t.val < grid0.N from t.isLt) hN
  obtain ⟨-, -, -, -, e0, e1⟩ := index_rows t
  funext y
  obtain ⟨r, j, rfl⟩ : ∃ (r : Fin 128) (j : Fin 2048), y = ix2 r j := ⟨y 0, y 1, eq_ix2 y⟩
  show out0_10 (iblk m c 0 t) (iblk m c 1 t) (iblk m c 2 t) (iblk m c 3 t) (iblk m c 4 t) (iblk m c 5 t) (iblk m c 6 t) (iblk m c 7 t) (iblk m c 8 t) (iblk m c 9 t) (ix2 r j) = result m c (((cfg0.win 10).blk t).view.emb (ix2 r j))
  refine (point_token m c t r j ⟨128 * t.val + r.val, by have := r.isLt; omega⟩ rfl).trans (congrArg _ ?_)
  funext a
  apply Fin.ext
  match a with
  | ⟨0, _⟩ => show 128 * t.val + r.val = win0_10.index t (0 : Fin 2) * 128 + 1 * r.val; rw [e0]; omega
  | ⟨1, _⟩ => show j.val = win0_10.index t (1 : Fin 2) * 2048 + 1 * j.val; rw [e1]; omega

/-! ## The blocks cover the array -/

/-- An index of the array is in point t's block iff each coordinate is in the block's range on its axis. -/
theorem mem_blk (t : Fin cfg0.N) (i : S8192x2048.Idx) :
    i ∈ ((cfg0.win 10).blk t).view.set ↔ ∀ a : Fin 2, win0_10.index t a * S128x2048.size a ≤ (i a).val
      ∧ (i a).val < win0_10.index t a * S128x2048.size a + S128x2048.size a := by
  show i ∈ ((View.whole main_v8).slice (win0_10.rect t)).set ↔ _
  rw [View.set_slice_whole, Rect.mem_set_unit]
  exact Iff.rfl

/-- Row i lies in the block of point i / 128, which writes back: the 64 blocks of 128 rows cover the 8192 rows. -/
theorem cover (i : S8192x2048.Idx) :
    ∃ t : Fin cfg0.N, (cfg0.win 10).flush t = true ∧ i ∈ ((cfg0.win 10).blk t).view.set := by
  have hN : grid0.N = 64 := N_0
  have hi0 : (i 0).val < 8192 := (i 0).isLt
  have hi1 : (i 1).val < 2048 := (i 1).isLt
  obtain ⟨t, ht⟩ : ∃ t : Fin cfg0.N, t.val = (i 0).val / 128 :=
    ⟨⟨(i 0).val / 128, by show (i 0).val / 128 < grid0.N; rw [hN]; omega⟩, rfl⟩
  obtain ⟨-, -, -, -, e0, e1⟩ := index_rows t
  refine ⟨t, flush0_10 t, ?_⟩
  rw [mem_blk]
  intro a
  match a with
  | ⟨0, _⟩ =>
    show win0_10.index t (0 : Fin 2) * 128 ≤ (i 0).val ∧ (i 0).val < win0_10.index t (0 : Fin 2) * 128 + 128
    rw [e0, ht]; omega
  | ⟨1, _⟩ =>
    show win0_10.index t (1 : Fin 2) * 2048 ≤ (i 1).val ∧ (i 1).val < win0_10.index t (1 : Fin 2) * 2048 + 2048
    rw [e1]; omega

/-! ## The array after the run -/

/-- The result array ends holding the one-token function of every row of the arguments. -/
theorem final (c : Dev nD) : (dats m 0 c).arrAt 10 cfg0.N
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (dats m 0 c).arrAt_eq_of_cover 10 (result m c) (fun t _ => flushed_eq m c t) cover

/-- The run, read: the result array at the one-token function of the arguments, the arguments unchanged. -/
theorem run : θ_run defs (onTc (τ := τ) (main (F := Ideal))) ⟨m, fun _ => 0, ρ⟩ fun r => ∀ c : Dev nD,
      r.2.mem ((c : Thread nD τ).loc main_v8) = G (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final m c), (h c).2⟩) (Value.run_blocks m ρ)

end Cert.KernelArray

end
-- ==== Proof.RefToken.lean ====
/-
  The reference program, read at one element, is the one-token function of TokenHeads.

  Each stage of the program is read at explicit coordinates (token t, heads h and g, lane d, column c): the three
  projections are a row of x or y through a linear layer; the scores are the scaled inner products of a query head
  with a key head; the largest score is the fold of max from -∞, taken once more against -∞; the weights are the
  exponentials of the shifted scores over their sum; a head's output is the weighted sum of the value heads; and the
  result is the output projection of the eight outputs laid side by side, plus the residual. The sums run over the
  same ranges in the same order on both sides, so no algebra is needed beyond 0 + s = s for the float sum's start.
-/
import proofs.«139374_j6485400617413_2_alg».proof.Proof.Gen.ReferenceIdeal.Read
import proofs.«139374_j6485400617413_2_alg».proof.Proof.TokenHeads
import Idealize.ShloMosaic.Lib.ValueIdx
import Idealize.ShloMosaic.PureOps.Ideal.Laws
import Idealize.ShloMosaic.PureOps.Reduce

noncomputable section

open scoped BigOperators

namespace Cert.RefToken

open Cert.ReferenceIdeal Cert.ReferenceIdeal.Gen Cert.ReferenceIdeal.Read Cert.TokenHeads
open Idealize.ShloMosaic Idealize.ShloMosaic.ValueIdx

/-- Row t of an array through a linear layer: the row's image under x ↦ x·Wᵀ + b. -/
abbrev proj (X : (⟨S8192x2048, .f32⟩ : BufTy).Contents (Elt Ideal)) (W : (⟨S2048x2048, .f32⟩ : BufTy).Contents (Elt Ideal))
    (B : (⟨S2048, .f32⟩ : BufTy).Contents (Elt Ideal)) (t : Fin 8192) : Fin 2048 → EReal :=
  lin (fun k => X (ix2 t k)) (fun j k => W (ix2 j k)) (fun j => B (ix1 j))

/-! ## A linear layer at (t, c) -/

/-- The product with the transposed weights, plus the bias broadcast down the rows, at (t, c): entry c of row t
    through the layer. -/
theorem linear_apply (X : (⟨S8192x2048, .f32⟩ : BufTy).Contents (Elt Ideal)) (W : (⟨S2048x2048, .f32⟩ : BufTy).Contents (Elt Ideal))
    (B : (⟨S2048, .f32⟩ : BufTy).Contents (Elt Ideal)) (t : Fin 8192) (c : Fin 2048) :
    val_main_v4 (F := Ideal) X W B (ix2 t c) = proj X W B t c := by
  rw [val_main_v4_apply, val_main_v1_apply, val_main_v3_apply, val_main_v2_apply, Ideal.addf_def]
  show _ = (∑ k : Fin 2048, X (ix2 t k) * W (ix2 c k)) + B (ix1 c)
  refine congrArg₂ (· + ·) (Finset.sum_congr rfl fun k _ => ?_) ?_
  · rw [val_main_v0_apply]
    refine congrArg₂ (· * ·) (congrArg X ?_) (congrArg W ?_)
    · exact funext fun a => Fin.ext (by match a with | ⟨0, _⟩ => rfl | ⟨1, _⟩ => rfl)
    · exact funext fun a => Fin.ext (by match a with | ⟨0, _⟩ => rfl | ⟨1, _⟩ => rfl)
  · exact congrArg B (funext fun a => Fin.ext (by match a with | ⟨0, _⟩ => rfl))

/-- Splitting a 2048-wide row into eight heads of 256 lanes: (t, h, d) of the reshaped array is (t, 256·h + d). -/
theorem heads_apply (X : (⟨S8192x2048, .f32⟩ : BufTy).Contents (Elt Ideal)) (W : (⟨S2048x2048, .f32⟩ : BufTy).Contents (Elt Ideal))
    (B : (⟨S2048, .f32⟩ : BufTy).Contents (Elt Ideal)) (t : Fin 8192) (h : Fin 8) (d : Fin 256) :
    val_main_v5 (F := Ideal) X W B (ix3 t h d) = proj X W B t (col h d) := by
  rw [val_main_v5_apply, ← linear_apply]
  refine congrArg (val_main_v4 (F := Ideal) X W B) (funext fun a => Fin.ext ?_)
  have ht := t.isLt; have hh := h.isLt; have hd := d.isLt
  match a with
  | ⟨0, _⟩ => show ((t.val * 8 + h.val) * 256 + d.val) / 2048 = t.val; omega
  | ⟨1, _⟩ => show ((t.val * 8 + h.val) * 256 + d.val) % 2048 = 256 * h.val + d.val; omega

/-- The key's heads: the same layer and the same split, on y. -/
theorem key_apply (x1 : (⟨S8192x2048, .f32⟩ : BufTy).Contents (Elt Ideal)) (x4 : (⟨S2048x2048, .f32⟩ : BufTy).Contents (Elt Ideal))
    (x5 : (⟨S2048, .f32⟩ : BufTy).Contents (Elt Ideal)) (t : Fin 8192) (h : Fin 8) (d : Fin 256) :
    val_main_v11 (F := Ideal) x1 x4 x5 (ix3 t h d) = proj x1 x4 x5 t (col h d) :=
  heads_apply x1 x4 x5 t h d

/-- The value's heads, likewise. -/
theorem value_apply (x1 : (⟨S8192x2048, .f32⟩ : BufTy).Contents (Elt Ideal)) (x6 : (⟨S2048x2048, .f32⟩ : BufTy).Contents (Elt Ideal))
    (x7 : (⟨S2048, .f32⟩ : BufTy).Contents (Elt Ideal)) (t : Fin 8192) (h : Fin 8) (d : Fin 256) :
    val_main_v17 (F := Ideal) x1 x6 x7 (ix3 t h d) = proj x1 x6 x7 t (col h d) :=
  heads_apply x1 x6 x7 t h d

/-! ## The scores and the largest of them -/

section Scores

variable (x0 x1 : (⟨S8192x2048, .f32⟩ : BufTy).Contents (Elt Ideal)) (x2 : (⟨S2048x2048, .f32⟩ : BufTy).Contents (Elt Ideal))
  (x3 : (⟨S2048, .f32⟩ : BufTy).Contents (Elt Ideal)) (x4 : (⟨S2048x2048, .f32⟩ : BufTy).Contents (Elt Ideal))
  (x5 : (⟨S2048, .f32⟩ : BufTy).Contents (Elt Ideal))

/-- The score of head h against head g at token t: the inner product over the 256 lanes, times 1/16. -/
theorem score_apply (t : Fin 8192) (h g : Fin 8) :
    val_main_v20 (F := Ideal) x0 x1 x2 x3 x4 x5 (ix3 t h g) = score (proj x0 x2 x3 t) (proj x1 x4 x5 t) h g := by
  rw [val_main_v20_apply, val_main_v18_apply, val_main_v19_apply, val_main_cst_apply, Ideal.mulf_def, Ideal.ofBits_def]
  have hl : ∀ k : Fin 256, lidx_main_v18 (ix3 t h g) k = ix3 t h k := fun k => funext fun a => Fin.ext (by
    match a with | ⟨0, _⟩ => rfl | ⟨1, _⟩ => rfl | ⟨2, _⟩ => rfl)
  have hr : ∀ k : Fin 256, ridx_main_v18 (ix3 t h g) k = ix3 t g k := fun k => funext fun a => Fin.ext (by
    match a with | ⟨0, _⟩ => rfl | ⟨1, _⟩ => rfl | ⟨2, _⟩ => rfl)
  refine congrArg (· * scale) (Finset.sum_congr rfl fun d _ => ?_)
  rw [hl, hr, heads_apply, key_apply]

/-- Over result index (t, h), the source index with coordinate g inserted on the reduced axis is (t, h, g). -/
theorem lift_apply (hr : S8192x8x8.Reduces [2] S8192x8) (t : Fin 8192) (h : Fin 8) (g : Fin 8) :
    hr.lift (ix2 t h) g = ix3 t h g := by
  funext c; apply Fin.ext
  fin_cases c <;> rfl

/-- The largest score of head h: the fold of max from -∞ over the eight scores, then once more against -∞. -/
theorem top_apply (t : Fin 8192) (h : Fin 8) :
    val_main_v23 (F := Ideal) x0 x1 x2 x3 x4 x5 (ix2 t h) = top (score (proj x0 x2 x3 t) (proj x1 x4 x5 t) h) := by
  have hr : S8192x8x8.Reduces [2] S8192x8 := by decide
  rw [val_main_v23_apply, val_main_v22_apply, val_main_cst_1_apply, Ideal.maximumf_def, Ideal.ofBits_def]
  unfold val_main_v21
  rw [Host.reduce_eq_fold_single FloatOps.maximumf _ _ reducesTo_S8192x8x8_S8192x8_d2 hr h_S_]
  have hf : (fun g : Fin 8 => val_main_v20 (F := Ideal) x0 x1 x2 x3 x4 x5 (hr.lift (ix2 t h) g))
      = score (proj x0 x2 x3 t) (proj x1 x4 x5 t) h := funext fun g => by rw [lift_apply, score_apply]
  refine congrArg (max bottom) ?_
  exact congrArg (fun f => Finset.fold max bottom f (Finset.univ : Finset (Fin 8))) hf

end Scores

/-! ## The softmax weights -/

section Weights

variable (x0 x1 : (⟨S8192x2048, .f32⟩ : BufTy).Contents (Elt Ideal)) (x2 : (⟨S2048x2048, .f32⟩ : BufTy).Contents (Elt Ideal))
  (x3 : (⟨S2048, .f32⟩ : BufTy).Contents (Elt Ideal)) (x4 : (⟨S2048x2048, .f32⟩ : BufTy).Contents (Elt Ideal))
  (x5 : (⟨S2048, .f32⟩ : BufTy).Contents (Elt Ideal))

/-- The exponential of a score with the largest score of its head subtracted. -/
theorem exp_apply (t : Fin 8192) (h g : Fin 8) :
    val_main_v27 (F := Ideal) x0 x1 x2 x3 x4 x5 (ix3 t h g)
      = Ideal.exp (score (proj x0 x2 x3 t) (proj x1 x4 x5 t) h g - top (score (proj x0 x2 x3 t) (proj x1 x4 x5 t) h)) := by
  have hi : idx_main_v24 (idx_main_v25 (ix3 t h g)) = ix2 t h := funext fun a => Fin.ext (by
    match a with | ⟨0, _⟩ => rfl | ⟨1, _⟩ => rfl)
  rw [val_main_v27_apply, val_main_v26_apply, val_main_v25_apply, val_main_v24_apply, Ideal.hostUnary_exp_def, Ideal.subf_def,
    score_apply, hi, top_apply]

/-- The sum of the eight exponentials of head h: the float sum starts from 0. -/
theorem denom_apply (t : Fin 8192) (h : Fin 8) :
    val_main_v28 (F := Ideal) x0 x1 x2 x3 x4 x5 (ix2 t h)
      = ∑ g' : Fin 8, Ideal.exp (score (proj x0 x2 x3 t) (proj x1 x4 x5 t) h g' - top (score (proj x0 x2 x3 t) (proj x1 x4 x5 t) h)) := by
  rw [val_main_v28_apply, val_main_cst_2_apply, Ideal.ofBits_def, Ideal.ofBits_zero_f32, zero_add]
  refine Finset.sum_congr rfl fun g' _ => ?_
  have hi : idx_main_v28 (ix2 t h) g' = ix3 t h g' := funext fun a => Fin.ext (by
    match a with | ⟨0, _⟩ => rfl | ⟨1, _⟩ => rfl | ⟨2, _⟩ => rfl)
  rw [hi, exp_apply]

/-- The softmax weight of head g among the scores of head h. -/
theorem weight_apply (t : Fin 8192) (h g : Fin 8) :
    val_main_v31 (F := Ideal) x0 x1 x2 x3 x4 x5 (ix3 t h g) = weight (score (proj x0 x2 x3 t) (proj x1 x4 x5 t) h) g := by
  have hi : idx_main_v29 (idx_main_v30 (ix3 t h g)) = ix2 t h := funext fun a => Fin.ext (by
    match a with | ⟨0, _⟩ => rfl | ⟨1, _⟩ => rfl)
  rw [val_main_v31_apply, val_main_v30_apply, val_main_v29_apply, Ideal.hostDivf_def, exp_apply, hi, denom_apply]
  rfl

end Weights

/-! ## The heads' outputs, side by side -/

section Attend

variable (x0 x1 : (⟨S8192x2048, .f32⟩ : BufTy).Contents (Elt Ideal)) (x2 : (⟨S2048x2048, .f32⟩ : BufTy).Contents (Elt Ideal))
  (x3 : (⟨S2048, .f32⟩ : BufTy).Contents (Elt Ideal)) (x4 : (⟨S2048x2048, .f32⟩ : BufTy).Contents (Elt Ideal))
  (x5 : (⟨S2048, .f32⟩ : BufTy).Contents (Elt Ideal)) (x6 : (⟨S2048x2048, .f32⟩ : BufTy).Contents (Elt Ideal))
  (x7 : (⟨S2048, .f32⟩ : BufTy).Contents (Elt Ideal))

/-- Lane d of head h's output: the weighted sum of the eight value heads at that lane. -/
theorem mix_apply (t : Fin 8192) (h : Fin 8) (d : Fin 256) :
    val_main_v32 (F := Ideal) x0 x1 x2 x3 x4 x5 x6 x7 (ix3 t h d)
      = mix (weight (score (proj x0 x2 x3 t) (proj x1 x4 x5 t) h)) (proj x1 x6 x7 t) d := by
  rw [val_main_v32_apply]
  refine Finset.sum_congr rfl fun g _ => ?_
  have hl : lidx_main_v32 (ix3 t h d) g = ix3 t h g := funext fun a => Fin.ext (by
    match a with | ⟨0, _⟩ => rfl | ⟨1, _⟩ => rfl | ⟨2, _⟩ => rfl)
  have hr : ridx_main_v32 (ix3 t h d) g = ix3 t g d := funext fun a => Fin.ext (by
    match a with | ⟨0, _⟩ => rfl | ⟨1, _⟩ => rfl | ⟨2, _⟩ => rfl)
  rw [hl, hr, weight_apply, value_apply]

/-- Column c of the attended row: laying the eight heads side by side again, column c is lane c mod 256 of head
    c / 256. -/
theorem attend_apply (t : Fin 8192) (c : Fin 2048) :
    val_main_v33 (F := Ideal) x0 x1 x2 x3 x4 x5 x6 x7 (ix2 t c)
      = attend (proj x0 x2 x3 t) (proj x1 x4 x5 t) (proj x1 x6 x7 t) c := by
  have hi : idx_main_v33 (ix2 t c) = ix3 t (headOf c) (laneOf c) := funext fun a => Fin.ext (by
    have ht := t.isLt; have hc := c.isLt
    match a with
    | ⟨0, _⟩ => show (t.val * 2048 + c.val) / 2048 = t.val; omega
    | ⟨1, _⟩ => show (t.val * 2048 + c.val) / 256 % 8 = c.val / 256; omega
    | ⟨2, _⟩ => show (t.val * 2048 + c.val) % 256 = c.val % 256; omega)
  rw [val_main_v33_apply, hi, mix_apply]
  rfl

end Attend

/-! ## The whole program -/

/-- The reference program's result is the one-token function, row by row: the output projection of the attended row,
    plus the residual. -/
theorem ref_eq_G (x0 x1 : (⟨S8192x2048, .f32⟩ : BufTy).Contents (Elt Ideal)) (x2 : (⟨S2048x2048, .f32⟩ : BufTy).Contents (Elt Ideal))
    (x3 : (⟨S2048, .f32⟩ : BufTy).Contents (Elt Ideal)) (x4 : (⟨S2048x2048, .f32⟩ : BufTy).Contents (Elt Ideal))
    (x5 : (⟨S2048, .f32⟩ : BufTy).Contents (Elt Ideal)) (x6 : (⟨S2048x2048, .f32⟩ : BufTy).Contents (Elt Ideal))
    (x7 : (⟨S2048, .f32⟩ : BufTy).Contents (Elt Ideal)) (x8 : (⟨S2048x2048, .f32⟩ : BufTy).Contents (Elt Ideal))
    (x9 : (⟨S2048, .f32⟩ : BufTy).Contents (Elt Ideal)) :
    Cert.ReferenceIdeal.Read.val_main_v39 (F := Ideal) x0 x1 x2 x3 x4 x5 x6 x7 x8 x9
      = Cert.TokenHeads.G x0 x1 x2 x3 x4 x5 x6 x7 x8 x9 := by
  funext i
  obtain ⟨t, j, rfl⟩ : ∃ (t : Fin 8192) (j : Fin 2048), i = ix2 t j := ⟨i 0, i 1, eq_ix2 i⟩
  have hrow : (fun k : Fin 2048 => val_main_v33 (F := Ideal) x0 x1 x2 x3 x4 x5 x6 x7 (ix2 t k))
      = attend (proj x0 x2 x3 t) (proj x1 x4 x5 t) (proj x1 x6 x7 t) :=
    funext fun k => attend_apply x0 x1 x2 x3 x4 x5 x6 x7 t k
  rw [val_main_v39_apply, Ideal.addf_def]
  show val_main_v4 (F := Ideal) (val_main_v33 (F := Ideal) x0 x1 x2 x3 x4 x5 x6 x7) x8 x9 (ix2 t j) + x0 (ix2 t j)
    = lin (attend (proj x0 x2 x3 t) (proj x1 x4 x5 t) (proj x1 x6 x7 t)) (fun j k => x8 (ix2 j k)) (fun j => x9 (ix1 j)) j
      + x0 (ix2 t j)
  rw [linear_apply]
  show lin (fun k : Fin 2048 => val_main_v33 (F := Ideal) x0 x1 x2 x3 x4 x5 x6 x7 (ix2 t k)) (fun j k => x8 (ix2 j k))
      (fun j => x9 (ix1 j)) j + x0 (ix2 t j) = _
  rw [hrow]

end Cert.RefToken

end
-- ==== Proof.lean ====
/-
  A fused kernel for attention across the eight heads of each token, against its plain reference, over the extended reals.

  Both programs compute, for every token t of 8192, the same one-token function (Proof/TokenHeads.lean): the
  projections q = x·Wqᵀ + bq, k = y·Wkᵀ + bk, v = y·Wvᵀ + bv of the token's rows of x and y; the scores ⟨q_h, k_g⟩/16
  of each of its eight heads against each other; a softmax over g; the weighted sum of the value heads; the output
  projection plus the residual x. The kernel does this for 128 tokens per grid step, with the eight key heads and the
  eight value heads taken one at a time (Proof/TokenProj.lean, TokenScores.lean, TokenSoftmax.lean, TokenBody.lean, over
  the re-laying operations read at an index in HeadLayout.lean and the product of rows against rows in
  LibDotRows.lean), and its 64 output blocks tile the result (Proof/KernelArray.lean); the reference does it with
  batched contractions over the whole arrays (Proof/RefToken.lean). The two agree sum for sum: the only law used is
  0 + s = s, so the inputs' finiteness is not needed for the values. The three frames are the generated ones (the
  reference's is its generated run with the result dropped), and the idealization rewrote nothing.
-/
import proofs.«139374_j6485400617413_2_alg».proof.Defs
import proofs.«139374_j6485400617413_2_alg».proof.Proof.Gen.Kernel
import proofs.«139374_j6485400617413_2_alg».proof.Proof.Gen.Kernel.Skeleton
import proofs.«139374_j6485400617413_2_alg».proof.Proof.Gen.Kernel.Launch
import proofs.«139374_j6485400617413_2_alg».proof.Proof.Gen.Kernel.Points
import proofs.«139374_j6485400617413_2_alg».proof.Proof.Gen.Kernel.Frame
import proofs.«139374_j6485400617413_2_alg».proof.Proof.Gen.KernelIdeal
import proofs.«139374_j6485400617413_2_alg».proof.Proof.Gen.KernelIdeal.Skeleton
import proofs.«139374_j6485400617413_2_alg».proof.Proof.Gen.KernelIdeal.Launch
import proofs.«139374_j6485400617413_2_alg».proof.Proof.Gen.KernelIdeal.Points
import proofs.«139374_j6485400617413_2_alg».proof.Proof.Gen.KernelIdeal.Frame
import proofs.«139374_j6485400617413_2_alg».proof.Proof.Gen.ReferenceIdeal
import proofs.«139374_j6485400617413_2_alg».proof.Proof.Gen.Pre_finite_inputs
import proofs.«139374_j6485400617413_2_alg».proof.Proof.Gen.KernelIdeal.Value
import proofs.«139374_j6485400617413_2_alg».proof.Proof.Gen.ReferenceIdeal.Run
import proofs.«139374_j6485400617413_2_alg».proof.Proof.Gen.ReferenceIdeal.Read
import proofs.«139374_j6485400617413_2_alg».proof.Proof.TokenHeads
import proofs.«139374_j6485400617413_2_alg».proof.Proof.KernelArray
import proofs.«139374_j6485400617413_2_alg».proof.Proof.RefToken
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run to the result, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Run from memories that agree on the arguments, both programs end with the result array at the one-token function
    of the argument arrays, row by row. -/
theorem algebraic : Cert.algebraic_KernelIdeal_ReferenceIdeal := by
  intro m ρ m' ρ' _ hagree
  refine ⟨_, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9⟩ := hagree c
  rw [Cert.ReferenceIdeal.Read.val_main_v39_eq, Cert.RefToken.ref_eq_G, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
